-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg13 : FVec F S128x4 .f32) (main_arg14 : FVec F S4 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x4 .f32 := Host.absf main_arg13
  let main_cst_20 : FVec F S_ .f32 := constant S_ .f32 0x7F800000#32
  let main_v55 : FVec F S128x4 .f32 := broadcastInDim S128x4 ![] bcast_S_S128x4 main_cst_20
  let main_v56 : IVec S128x4 1 := cmpf .olt main_v54 main_v55
  let main_c_21 : IVec S_ 1 := constantI S_ 1 1#1
  let main_v57 : IVec S_ 1 := (fun x v => Host.reduce IntOp.andi x v reducesTo_S128x4_S_d0_1 h_S_) main_v56 main_c_21
  let main_v58 : IVec S_ 1 := andi main_v53 main_v57
  let main_v59 : FVec F S4 .f32 := Host.absf main_arg14
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x4 .f32) (main_arg14 : FVec F S4 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x4 .f32) (main_arg14 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x4 .f32) (main_arg14 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S50000x4 : Shape := ⟨2, ![50000, 4]⟩
abbrev S5000x4 : Shape := ⟨2, ![5000, 4]⟩
abbrev S1x4 : Shape := ⟨2, ![1, 4]⟩

abbrev nBuf : Space → Nat
  | .hbm => 106
  | .vmem => 56
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x4, .f32⟩
  | .hbm, ⟨14, _⟩ => ⟨S4, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000x128, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x128, .f32⟩
  | .hbm, ⟨101, _⟩ => ⟨S_, .f32⟩
  | .hbm, ⟨102, _⟩ => ⟨S50000x128, .f32⟩
  | .hbm, ⟨103, _⟩ => ⟨S800000x1, .i32⟩
  | .hbm, ⟨104, _⟩ => ⟨S50000x128, .f32⟩
  | .hbm, ⟨105, _⟩ => ⟨S50000x4, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128, .f32⟩
  | .local _ .vmem, ⟨22, _⟩ => ⟨S128x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128, .f32⟩
  | .local _ .vmem, ⟨32, _⟩ => ⟨S128x128, .f32⟩
  | .local _ .vmem, ⟨33, _⟩ => ⟨S5000x1, .f32⟩
  | .local _ .vmem, ⟨34, _⟩ => ⟨S5000x1, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S128, .f32⟩
  | .local _ .vmem, ⟨42, _⟩ => ⟨S128x128, .f32⟩
  | .local _ .vmem, ⟨43, _⟩ => ⟨S5000x1, .f32⟩
  | .local _ .vmem, ⟨44, _⟩ => ⟨S5000x1, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S128, .f32⟩
  | .local _ .vmem, ⟨52, _⟩ => ⟨S128x4, .f32⟩
  | .local _ .vmem, ⟨53, _⟩ => ⟨S4, .f32⟩
  | .local _ .vmem, ⟨54, _⟩ => ⟨S5000x4, .f32⟩
  | .local _ .vmem, ⟨55, _⟩ => ⟨S5000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_c_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_c_16 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_17 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem4_1 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem4_0 : DmaSem sig := 43
abbrev cc4_sem4_1 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x4 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S4 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x4 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x4_S128x4_0_0 : ∀ a, (![0, 0] : Fin 2 → Nat) a + S128x4.size a ≤ S128x4.size a
  h_S128x4 : 0 < S128x4.numel
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x4_S5000x4_1_0_0_1_n_n_wf : DotDims.WF S5000x128 S128x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S50000x1.size a
  hwx2_4 : ∀ i : grid2.Coords, EltTy.bits .f32 = 32 ∨ (Rect.block (s := S50000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S50000x1.size a
  hwx3_4 : ∀ i : grid3.Coords, EltTy.bits .f32 = 32 ∨ (Rect.block (s := S50000x1) S5000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x1.size a ≤ S50000x1.size a
  hwx4_4 : ∀ i : grid4.Coords, EltTy.bits .f32 = 32 ∨ (Rect.block (s := S50000x1) S5000x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x4.size a ≤ S128x4.size a
  hwx5_3 : ∀ i : grid5.Coords, EltTy.bits .f32 = 32 ∨ (Rect.block (s := S128x4) S128x4.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S4.size a ≤ S4.size a
  hwx5_4 : ∀ i : grid5.Coords, EltTy.bits .f32 = 32 ∨ (Rect.block (s := S4) S4.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x4.size a ≤ S50000x4.size a
  hwx5_5 : ∀ i : grid5.Coords, EltTy.bits .f32 = 32 ∨ (Rect.block (s := S50000x4) S5000x4.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v48) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v10) S5000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v59) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v69) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S128x4.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg14) S4.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S5000x4.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x4 : Shape := ⟨2, ![50000, 4]⟩
abbrev S1x4 : Shape := ⟨2, ![1, 4]⟩

abbrev nBuf : Space → Nat
  | .hbm => 187
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x4, .f32⟩
  | 14 => ⟨S4, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000, .f32⟩
  | 33 => ⟨S50000x128, .f32⟩
  | 34 => ⟨S50000x1, .f32⟩
  | 35 => ⟨S50000x128, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x1, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .i1⟩
  | 59 => ⟨S_, .f32⟩
  | 60 => ⟨S50000x128, .f32⟩
  | 61 => ⟨S50000x128, .f32⟩
  | 62 => ⟨S50000x128, .f32⟩
  | 63 => ⟨S50000x128, .f32⟩
  | 64 => ⟨S50000x1, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S50000x1, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .i1⟩
  | 89 => ⟨S_, .f32⟩
  | 90 => ⟨S50000x128, .f32⟩
  | 91 => ⟨S50000x128, .f32⟩
  | 92 => ⟨S50000x128, .f32⟩
  | 93 => ⟨S50000x128, .f32⟩
  | 94 => ⟨S50000x1, .f32⟩
  | 95 => ⟨S50000x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x1, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .i1⟩
  | 119 => ⟨S_, .f32⟩
  | 120 => ⟨S50000x128, .f32⟩
  | 121 => ⟨S50000x128, .f32⟩
  | 122 => ⟨S50000x128, .f32⟩
  | 123 => ⟨S50000x128, .f32⟩
  | 124 => ⟨S50000x1, .f32⟩
  | 125 => ⟨S50000x128, .f32⟩
  | 126 => ⟨S50000x128, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S_, .f32⟩
  | 9 => ⟨S50000x128, .f32⟩
  | 10 => ⟨S800000x1, .i32⟩
  | 11 => ⟨S50000x128, .f32⟩
  | 12 => ⟨S50000x1, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .i1⟩
  | 21 => ⟨S_, .f32⟩
  | 22 => ⟨S50000x128, .f32⟩
  | 23 => ⟨S50000x128, .f32⟩
  | 24 => ⟨S50000x128, .f32⟩
  | 25 => ⟨S50000x128, .f32⟩
  | 26 => ⟨S50000x1, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x1, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .i1⟩
  | 51 => ⟨S_, .f32⟩
  | 52 => ⟨S50000x128, .f32⟩
  | 53 => ⟨S50000x128, .f32⟩
  | 54 => ⟨S50000x128, .f32⟩
  | 55 => ⟨S50000x4, .f32⟩
  | 56 => ⟨S1x4, .f32⟩
  | 57 => ⟨S50000x4, .f32⟩
  | 58 => ⟨S50000x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_18 : Ref sig .tc := ⟨.hbm, 127, rfl⟩
abbrev main_v92 : Ref sig .tc := ⟨.hbm, 128, rfl⟩
abbrev main_v93 : Ref sig .tc := ⟨.hbm, 129, rfl⟩
abbrev main_c_19 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_21 : Ref sig .tc := ⟨.hbm, 146, rfl⟩
abbrev main_v108 : Ref sig .tc := ⟨.hbm, 147, rfl⟩
abbrev main_v109 : Ref sig .tc := ⟨.hbm, 148, rfl⟩
abbrev main_cst_22 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_23 : Ref sig .tc := ⟨.hbm, 157, rfl⟩
abbrev main_v117 : Ref sig .tc := ⟨.hbm, 158, rfl⟩
abbrev main_v118 : Ref sig .tc := ⟨.hbm, 159, rfl⟩
abbrev main_c_24 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_25 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_26 : Ref sig .tc := ⟨.hbm, 176, rfl⟩
abbrev main_v133 : Ref sig .tc := ⟨.hbm, 177, rfl⟩
abbrev main_v134 : Ref sig .tc := ⟨.hbm, 178, rfl⟩
abbrev main_cst_27 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x4_S50000x4_1_0_0_1_n_n_wf : DotDims.WF S50000x128 S128x4 S50000x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf

class Facts : Prop extends Facts₀ where

variable [Facts]
-- ==== Proof.KRun.lean ====
/-
  The idealized kernel's run with its result named.

  Every weakly fair execution of the program terminates, nothing faulting, and in the final state the result array holds
  what the fold of boundary contents has at it after the last region (`W12`), while every argument array holds its launch
  contents. The run is the library's launch of the chain of stretches and regions; the final state is read at every
  unscoped buffer, the result among them.
-/
import proofs.«131942_j13975823581721_1_alg».proof.Proof.Gen.KernelIdeal.Frame
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, read at the result and at the arguments. -/
theorem run_value : θ_run defs (onTc (τ := τ) (main (F := Ideal))) ⟨m, fun _ => 0, ρ⟩ (fun r => ∀ c : Dev nD,
      r.2.mem ((c.tc : Thread nD τ).loc main_v70) = W12 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v70 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.Val

end
-- ==== Proof.Walk.lean ====
/-
  Buffers that are written once and then only read: each argument array, and the two columns of degree factors.

  The program is a chain of host stretches and kernel regions. A stretch changes only the buffers its operations write;
  a region changes only its output array (an input window's array is read, never written back). So an argument array
  holds its launch contents at every later boundary, and a column of degree factors holds, at every later boundary, what
  the first stretch left in it. One lemma per buffer and boundary says that the boundary's contents are the previous
  boundary's; chained, they carry each buffer back to where it was written.
-/
import proofs.«131942_j13975823581721_1_alg».proof.Proof.Gen.KernelIdeal.Frame
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- No operation of the named stretch writes the buffer in the goal, so the stretch leaves it as it was. -/
macro "stretch_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ### `main_arg0` -/
theorem step1_arg0 (c : Dev nD) : W1 m ρ c (Proc.devRef .tc main_arg0) = W0 m ρ c (Proc.devRef .tc main_arg0) := by
  stretch_keeps hostOps0
theorem at0_arg0 (c : Dev nD) : W0 m ρ c (Proc.devRef .tc main_arg0) = m ((c : Thread nD τ).loc main_arg0) := rfl
theorem at1_arg0 (c : Dev nD) : W1 m ρ c (Proc.devRef .tc main_arg0) = m ((c : Thread nD τ).loc main_arg0) :=
  (step1_arg0 m ρ c).trans (at0_arg0 m ρ c)

/-! ### `main_arg3` -/
theorem step1_arg3 (c : Dev nD) : W1 m ρ c (Proc.devRef .tc main_arg3) = W0 m ρ c (Proc.devRef .tc main_arg3) := by
  stretch_keeps hostOps0
theorem at0_arg3 (c : Dev nD) : W0 m ρ c (Proc.devRef .tc main_arg3) = m ((c : Thread nD τ).loc main_arg3) := rfl
theorem at1_arg3 (c : Dev nD) : W1 m ρ c (Proc.devRef .tc main_arg3) = m ((c : Thread nD τ).loc main_arg3) :=
  (step1_arg3 m ρ c).trans (at0_arg3 m ρ c)

/-! ### `main_arg1` -/
theorem step1_arg1 (c : Dev nD) : W1 m ρ c (Proc.devRef .tc main_arg1) = W0 m ρ c (Proc.devRef .tc main_arg1) := by
  stretch_keeps hostOps0
theorem step2_arg1 (c : Dev nD) : W2 m ρ c (Proc.devRef .tc main_arg1) = W1 m ρ c (Proc.devRef .tc main_arg1) :=
  W2_of_ne m ρ c main_arg1 (by decide)
theorem step3_arg1 (c : Dev nD) : W3 m ρ c (Proc.devRef .tc main_arg1) = W2 m ρ c (Proc.devRef .tc main_arg1) := by
  stretch_keeps hostOps1
theorem step4_arg1 (c : Dev nD) : W4 m ρ c (Proc.devRef .tc main_arg1) = W3 m ρ c (Proc.devRef .tc main_arg1) :=
  W4_of_ne m ρ c main_arg1 (by decide)
theorem step5_arg1 (c : Dev nD) : W5 m ρ c (Proc.devRef .tc main_arg1) = W4 m ρ c (Proc.devRef .tc main_arg1) := by
  stretch_keeps hostOps2
theorem step6_arg1 (c : Dev nD) : W6 m ρ c (Proc.devRef .tc main_arg1) = W5 m ρ c (Proc.devRef .tc main_arg1) :=
  W6_of_ne m ρ c main_arg1 (by decide)
theorem step7_arg1 (c : Dev nD) : W7 m ρ c (Proc.devRef .tc main_arg1) = W6 m ρ c (Proc.devRef .tc main_arg1) := by
  stretch_keeps hostOps3
theorem step8_arg1 (c : Dev nD) : W8 m ρ c (Proc.devRef .tc main_arg1) = W7 m ρ c (Proc.devRef .tc main_arg1) :=
  W8_of_ne m ρ c main_arg1 (by decide)
theorem step9_arg1 (c : Dev nD) : W9 m ρ c (Proc.devRef .tc main_arg1) = W8 m ρ c (Proc.devRef .tc main_arg1) := by
  stretch_keeps hostOps4
theorem step10_arg1 (c : Dev nD) : W10 m ρ c (Proc.devRef .tc main_arg1) = W9 m ρ c (Proc.devRef .tc main_arg1) :=
  W10_of_ne m ρ c main_arg1 (by decide)
theorem at0_arg1 (c : Dev nD) : W0 m ρ c (Proc.devRef .tc main_arg1) = m ((c : Thread nD τ).loc main_arg1) := rfl
theorem at1_arg1 (c : Dev nD) : W1 m ρ c (Proc.devRef .tc main_arg1) = m ((c : Thread nD τ).loc main_arg1) :=
  (step1_arg1 m ρ c).trans (at0_arg1 m ρ c)
theorem at2_arg1 (c : Dev nD) : W2 m ρ c (Proc.devRef .tc main_arg1) = m ((c : Thread nD τ).loc main_arg1) :=
  (step2_arg1 m ρ c).trans (at1_arg1 m ρ c)
theorem at3_arg1 (c : Dev nD) : W3 m ρ c (Proc.devRef .tc main_arg1) = m ((c : Thread nD τ).loc main_arg1) :=
  (step3_arg1 m ρ c).trans (at2_arg1 m ρ c)
theorem at4_arg1 (c : Dev nD) : W4 m ρ c (Proc.devRef .tc main_arg1) = m ((c : Thread nD τ).loc main_arg1) :=
  (step4_arg1 m ρ c).trans (at3_arg1 m ρ c)
theorem at5_arg1 (c : Dev nD) : W5 m ρ c (Proc.devRef .tc main_arg1) = m ((c : Thread nD τ).loc main_arg1) :=
  (step5_arg1 m ρ c).trans (at4_arg1 m ρ c)
theorem at6_arg1 (c : Dev nD) : W6 m ρ c (Proc.devRef .tc main_arg1) = m ((c : Thread nD τ).loc main_arg1) :=
  (step6_arg1 m ρ c).trans (at5_arg1 m ρ c)
theorem at7_arg1 (c : Dev nD) : W7 m ρ c (Proc.devRef .tc main_arg1) = m ((c : Thread nD τ).loc main_arg1) :=
  (step7_arg1 m ρ c).trans (at6_arg1 m ρ c)
theorem at8_arg1 (c : Dev nD) : W8 m ρ c (Proc.devRef .tc main_arg1) = m ((c : Thread nD τ).loc main_arg1) :=
  (step8_arg1 m ρ c).trans (at7_arg1 m ρ c)
theorem at9_arg1 (c : Dev nD) : W9 m ρ c (Proc.devRef .tc main_arg1) = m ((c : Thread nD τ).loc main_arg1) :=
  (step9_arg1 m ρ c).trans (at8_arg1 m ρ c)
theorem at10_arg1 (c : Dev nD) : W10 m ρ c (Proc.devRef .tc main_arg1) = m ((c : Thread nD τ).loc main_arg1) :=
  (step10_arg1 m ρ c).trans (at9_arg1 m ρ c)

/-! ### `main_arg2` -/
theorem step1_arg2 (c : Dev nD) : W1 m ρ c (Proc.devRef .tc main_arg2) = W0 m ρ c (Proc.devRef .tc main_arg2) := by
  stretch_keeps hostOps0
theorem step2_arg2 (c : Dev nD) : W2 m ρ c (Proc.devRef .tc main_arg2) = W1 m ρ c (Proc.devRef .tc main_arg2) :=
  W2_of_ne m ρ c main_arg2 (by decide)
theorem step3_arg2 (c : Dev nD) : W3 m ρ c (Proc.devRef .tc main_arg2) = W2 m ρ c (Proc.devRef .tc main_arg2) := by
  stretch_keeps hostOps1
theorem step4_arg2 (c : Dev nD) : W4 m ρ c (Proc.devRef .tc main_arg2) = W3 m ρ c (Proc.devRef .tc main_arg2) :=
  W4_of_ne m ρ c main_arg2 (by decide)
theorem step5_arg2 (c : Dev nD) : W5 m ρ c (Proc.devRef .tc main_arg2) = W4 m ρ c (Proc.devRef .tc main_arg2) := by
  stretch_keeps hostOps2
theorem step6_arg2 (c : Dev nD) : W6 m ρ c (Proc.devRef .tc main_arg2) = W5 m ρ c (Proc.devRef .tc main_arg2) :=
  W6_of_ne m ρ c main_arg2 (by decide)
theorem step7_arg2 (c : Dev nD) : W7 m ρ c (Proc.devRef .tc main_arg2) = W6 m ρ c (Proc.devRef .tc main_arg2) := by
  stretch_keeps hostOps3
theorem step8_arg2 (c : Dev nD) : W8 m ρ c (Proc.devRef .tc main_arg2) = W7 m ρ c (Proc.devRef .tc main_arg2) :=
  W8_of_ne m ρ c main_arg2 (by decide)
theorem step9_arg2 (c : Dev nD) : W9 m ρ c (Proc.devRef .tc main_arg2) = W8 m ρ c (Proc.devRef .tc main_arg2) := by
  stretch_keeps hostOps4
theorem step10_arg2 (c : Dev nD) : W10 m ρ c (Proc.devRef .tc main_arg2) = W9 m ρ c (Proc.devRef .tc main_arg2) :=
  W10_of_ne m ρ c main_arg2 (by decide)
theorem at0_arg2 (c : Dev nD) : W0 m ρ c (Proc.devRef .tc main_arg2) = m ((c : Thread nD τ).loc main_arg2) := rfl
theorem at1_arg2 (c : Dev nD) : W1 m ρ c (Proc.devRef .tc main_arg2) = m ((c : Thread nD τ).loc main_arg2) :=
  (step1_arg2 m ρ c).trans (at0_arg2 m ρ c)
theorem at2_arg2 (c : Dev nD) : W2 m ρ c (Proc.devRef .tc main_arg2) = m ((c : Thread nD τ).loc main_arg2) :=
  (step2_arg2 m ρ c).trans (at1_arg2 m ρ c)
theorem at3_arg2 (c : Dev nD) : W3 m ρ c (Proc.devRef .tc main_arg2) = m ((c : Thread nD τ).loc main_arg2) :=
  (step3_arg2 m ρ c).trans (at2_arg2 m ρ c)
theorem at4_arg2 (c : Dev nD) : W4 m ρ c (Proc.devRef .tc main_arg2) = m ((c : Thread nD τ).loc main_arg2) :=
  (step4_arg2 m ρ c).trans (at3_arg2 m ρ c)
theorem at5_arg2 (c : Dev nD) : W5 m ρ c (Proc.devRef .tc main_arg2) = m ((c : Thread nD τ).loc main_arg2) :=
  (step5_arg2 m ρ c).trans (at4_arg2 m ρ c)
theorem at6_arg2 (c : Dev nD) : W6 m ρ c (Proc.devRef .tc main_arg2) = m ((c : Thread nD τ).loc main_arg2) :=
  (step6_arg2 m ρ c).trans (at5_arg2 m ρ c)
theorem at7_arg2 (c : Dev nD) : W7 m ρ c (Proc.devRef .tc main_arg2) = m ((c : Thread nD τ).loc main_arg2) :=
  (step7_arg2 m ρ c).trans (at6_arg2 m ρ c)
theorem at8_arg2 (c : Dev nD) : W8 m ρ c (Proc.devRef .tc main_arg2) = m ((c : Thread nD τ).loc main_arg2) :=
  (step8_arg2 m ρ c).trans (at7_arg2 m ρ c)
theorem at9_arg2 (c : Dev nD) : W9 m ρ c (Proc.devRef .tc main_arg2) = m ((c : Thread nD τ).loc main_arg2) :=
  (step9_arg2 m ρ c).trans (at8_arg2 m ρ c)
theorem at10_arg2 (c : Dev nD) : W10 m ρ c (Proc.devRef .tc main_arg2) = m ((c : Thread nD τ).loc main_arg2) :=
  (step10_arg2 m ρ c).trans (at9_arg2 m ρ c)

/-! ### `main_arg4` -/
theorem step1_arg4 (c : Dev nD) : W1 m ρ c (Proc.devRef .tc main_arg4) = W0 m ρ c (Proc.devRef .tc main_arg4) := by
  stretch_keeps hostOps0
theorem step2_arg4 (c : Dev nD) : W2 m ρ c (Proc.devRef .tc main_arg4) = W1 m ρ c (Proc.devRef .tc main_arg4) :=
  W2_of_ne m ρ c main_arg4 (by decide)
theorem step3_arg4 (c : Dev nD) : W3 m ρ c (Proc.devRef .tc main_arg4) = W2 m ρ c (Proc.devRef .tc main_arg4) := by
  stretch_keeps hostOps1
theorem at0_arg4 (c : Dev nD) : W0 m ρ c (Proc.devRef .tc main_arg4) = m ((c : Thread nD τ).loc main_arg4) := rfl
theorem at1_arg4 (c : Dev nD) : W1 m ρ c (Proc.devRef .tc main_arg4) = m ((c : Thread nD τ).loc main_arg4) :=
  (step1_arg4 m ρ c).trans (at0_arg4 m ρ c)
theorem at2_arg4 (c : Dev nD) : W2 m ρ c (Proc.devRef .tc main_arg4) = m ((c : Thread nD τ).loc main_arg4) :=
  (step2_arg4 m ρ c).trans (at1_arg4 m ρ c)
theorem at3_arg4 (c : Dev nD) : W3 m ρ c (Proc.devRef .tc main_arg4) = m ((c : Thread nD τ).loc main_arg4) :=
  (step3_arg4 m ρ c).trans (at2_arg4 m ρ c)

/-! ### `main_arg5` -/
theorem step1_arg5 (c : Dev nD) : W1 m ρ c (Proc.devRef .tc main_arg5) = W0 m ρ c (Proc.devRef .tc main_arg5) := by
  stretch_keeps hostOps0
theorem step2_arg5 (c : Dev nD) : W2 m ρ c (Proc.devRef .tc main_arg5) = W1 m ρ c (Proc.devRef .tc main_arg5) :=
  W2_of_ne m ρ c main_arg5 (by decide)
theorem step3_arg5 (c : Dev nD) : W3 m ρ c (Proc.devRef .tc main_arg5) = W2 m ρ c (Proc.devRef .tc main_arg5) := by
  stretch_keeps hostOps1
theorem at0_arg5 (c : Dev nD) : W0 m ρ c (Proc.devRef .tc main_arg5) = m ((c : Thread nD τ).loc main_arg5) := rfl
theorem at1_arg5 (c : Dev nD) : W1 m ρ c (Proc.devRef .tc main_arg5) = m ((c : Thread nD τ).loc main_arg5) :=
  (step1_arg5 m ρ c).trans (at0_arg5 m ρ c)
theorem at2_arg5 (c : Dev nD) : W2 m ρ c (Proc.devRef .tc main_arg5) = m ((c : Thread nD τ).loc main_arg5) :=
  (step2_arg5 m ρ c).trans (at1_arg5 m ρ c)
theorem at3_arg5 (c : Dev nD) : W3 m ρ c (Proc.devRef .tc main_arg5) = m ((c : Thread nD τ).loc main_arg5) :=
  (step3_arg5 m ρ c).trans (at2_arg5 m ρ c)

/-! ### `main_arg6` -/
theorem step1_arg6 (c : Dev nD) : W1 m ρ c (Proc.devRef .tc main_arg6) = W0 m ρ c (Proc.devRef .tc main_arg6) := by
  stretch_keeps hostOps0
theorem step2_arg6 (c : Dev nD) : W2 m ρ c (Proc.devRef .tc main_arg6) = W1 m ρ c (Proc.devRef .tc main_arg6) :=
  W2_of_ne m ρ c main_arg6 (by decide)
theorem step3_arg6 (c : Dev nD) : W3 m ρ c (Proc.devRef .tc main_arg6) = W2 m ρ c (Proc.devRef .tc main_arg6) := by
  stretch_keeps hostOps1
theorem step4_arg6 (c : Dev nD) : W4 m ρ c (Proc.devRef .tc main_arg6) = W3 m ρ c (Proc.devRef .tc main_arg6) :=
  W4_of_ne m ρ c main_arg6 (by decide)
theorem step5_arg6 (c : Dev nD) : W5 m ρ c (Proc.devRef .tc main_arg6) = W4 m ρ c (Proc.devRef .tc main_arg6) := by
  stretch_keeps hostOps2
theorem at0_arg6 (c : Dev nD) : W0 m ρ c (Proc.devRef .tc main_arg6) = m ((c : Thread nD τ).loc main_arg6) := rfl
theorem at1_arg6 (c : Dev nD) : W1 m ρ c (Proc.devRef .tc main_arg6) = m ((c : Thread nD τ).loc main_arg6) :=
  (step1_arg6 m ρ c).trans (at0_arg6 m ρ c)
theorem at2_arg6 (c : Dev nD) : W2 m ρ c (Proc.devRef .tc main_arg6) = m ((c : Thread nD τ).loc main_arg6) :=
  (step2_arg6 m ρ c).trans (at1_arg6 m ρ c)
theorem at3_arg6 (c : Dev nD) : W3 m ρ c (Proc.devRef .tc main_arg6) = m ((c : Thread nD τ).loc main_arg6) :=
  (step3_arg6 m ρ c).trans (at2_arg6 m ρ c)
theorem at4_arg6 (c : Dev nD) : W4 m ρ c (Proc.devRef .tc main_arg6) = m ((c : Thread nD τ).loc main_arg6) :=
  (step4_arg6 m ρ c).trans (at3_arg6 m ρ c)
theorem at5_arg6 (c : Dev nD) : W5 m ρ c (Proc.devRef .tc main_arg6) = m ((c : Thread nD τ).loc main_arg6) :=
  (step5_arg6 m ρ c).trans (at4_arg6 m ρ c)

/-! ### `main_arg7` -/
theorem step1_arg7 (c : Dev nD) : W1 m ρ c (Proc.devRef .tc main_arg7) = W0 m ρ c (Proc.devRef .tc main_arg7) := by
  stretch_keeps hostOps0
theorem step2_arg7 (c : Dev nD) : W2 m ρ c (Proc.devRef .tc main_arg7) = W1 m ρ c (Proc.devRef .tc main_arg7) :=
  W2_of_ne m ρ c main_arg7 (by decide)
theorem step3_arg7 (c : Dev nD) : W3 m ρ c (Proc.devRef .tc main_arg7) = W2 m ρ c (Proc.devRef .tc main_arg7) := by
  stretch_keeps hostOps1
theorem step4_arg7 (c : Dev nD) : W4 m ρ c (Proc.devRef .tc main_arg7) = W3 m ρ c (Proc.devRef .tc main_arg7) :=
  W4_of_ne m ρ c main_arg7 (by decide)
theorem step5_arg7 (c : Dev nD) : W5 m ρ c (Proc.devRef .tc main_arg7) = W4 m ρ c (Proc.devRef .tc main_arg7) := by
  stretch_keeps hostOps2
theorem at0_arg7 (c : Dev nD) : W0 m ρ c (Proc.devRef .tc main_arg7) = m ((c : Thread nD τ).loc main_arg7) := rfl
theorem at1_arg7 (c : Dev nD) : W1 m ρ c (Proc.devRef .tc main_arg7) = m ((c : Thread nD τ).loc main_arg7) :=
  (step1_arg7 m ρ c).trans (at0_arg7 m ρ c)
theorem at2_arg7 (c : Dev nD) : W2 m ρ c (Proc.devRef .tc main_arg7) = m ((c : Thread nD τ).loc main_arg7) :=
  (step2_arg7 m ρ c).trans (at1_arg7 m ρ c)
theorem at3_arg7 (c : Dev nD) : W3 m ρ c (Proc.devRef .tc main_arg7) = m ((c : Thread nD τ).loc main_arg7) :=
  (step3_arg7 m ρ c).trans (at2_arg7 m ρ c)
theorem at4_arg7 (c : Dev nD) : W4 m ρ c (Proc.devRef .tc main_arg7) = m ((c : Thread nD τ).loc main_arg7) :=
  (step4_arg7 m ρ c).trans (at3_arg7 m ρ c)
theorem at5_arg7 (c : Dev nD) : W5 m ρ c (Proc.devRef .tc main_arg7) = m ((c : Thread nD τ).loc main_arg7) :=
  (step5_arg7 m ρ c).trans (at4_arg7 m ρ c)

/-! ### `main_arg8` -/
theorem step1_arg8 (c : Dev nD) : W1 m ρ c (Proc.devRef .tc main_arg8) = W0 m ρ c (Proc.devRef .tc main_arg8) := by
  stretch_keeps hostOps0
theorem step2_arg8 (c : Dev nD) : W2 m ρ c (Proc.devRef .tc main_arg8) = W1 m ρ c (Proc.devRef .tc main_arg8) :=
  W2_of_ne m ρ c main_arg8 (by decide)
theorem step3_arg8 (c : Dev nD) : W3 m ρ c (Proc.devRef .tc main_arg8) = W2 m ρ c (Proc.devRef .tc main_arg8) := by
  stretch_keeps hostOps1
theorem step4_arg8 (c : Dev nD) : W4 m ρ c (Proc.devRef .tc main_arg8) = W3 m ρ c (Proc.devRef .tc main_arg8) :=
  W4_of_ne m ρ c main_arg8 (by decide)
theorem step5_arg8 (c : Dev nD) : W5 m ρ c (Proc.devRef .tc main_arg8) = W4 m ρ c (Proc.devRef .tc main_arg8) := by
  stretch_keeps hostOps2
theorem step6_arg8 (c : Dev nD) : W6 m ρ c (Proc.devRef .tc main_arg8) = W5 m ρ c (Proc.devRef .tc main_arg8) :=
  W6_of_ne m ρ c main_arg8 (by decide)
theorem step7_arg8 (c : Dev nD) : W7 m ρ c (Proc.devRef .tc main_arg8) = W6 m ρ c (Proc.devRef .tc main_arg8) := by
  stretch_keeps hostOps3
theorem at0_arg8 (c : Dev nD) : W0 m ρ c (Proc.devRef .tc main_arg8) = m ((c : Thread nD τ).loc main_arg8) := rfl
theorem at1_arg8 (c : Dev nD) : W1 m ρ c (Proc.devRef .tc main_arg8) = m ((c : Thread nD τ).loc main_arg8) :=
  (step1_arg8 m ρ c).trans (at0_arg8 m ρ c)
theorem at2_arg8 (c : Dev nD) : W2 m ρ c (Proc.devRef .tc main_arg8) = m ((c : Thread nD τ).loc main_arg8) :=
  (step2_arg8 m ρ c).trans (at1_arg8 m ρ c)
theorem at3_arg8 (c : Dev nD) : W3 m ρ c (Proc.devRef .tc main_arg8) = m ((c : Thread nD τ).loc main_arg8) :=
  (step3_arg8 m ρ c).trans (at2_arg8 m ρ c)
theorem at4_arg8 (c : Dev nD) : W4 m ρ c (Proc.devRef .tc main_arg8) = m ((c : Thread nD τ).loc main_arg8) :=
  (step4_arg8 m ρ c).trans (at3_arg8 m ρ c)
theorem at5_arg8 (c : Dev nD) : W5 m ρ c (Proc.devRef .tc main_arg8) = m ((c : Thread nD τ).loc main_arg8) :=
  (step5_arg8 m ρ c).trans (at4_arg8 m ρ c)
theorem at6_arg8 (c : Dev nD) : W6 m ρ c (Proc.devRef .tc main_arg8) = m ((c : Thread nD τ).loc main_arg8) :=
  (step6_arg8 m ρ c).trans (at5_arg8 m ρ c)
theorem at7_arg8 (c : Dev nD) : W7 m ρ c (Proc.devRef .tc main_arg8) = m ((c : Thread nD τ).loc main_arg8) :=
  (step7_arg8 m ρ c).trans (at6_arg8 m ρ c)

/-! ### `main_arg9` -/
theorem step1_arg9 (c : Dev nD) : W1 m ρ c (Proc.devRef .tc main_arg9) = W0 m ρ c (Proc.devRef .tc main_arg9) := by
  stretch_keeps hostOps0
theorem step2_arg9 (c : Dev nD) : W2 m ρ c (Proc.devRef .tc main_arg9) = W1 m ρ c (Proc.devRef .tc main_arg9) :=
  W2_of_ne m ρ c main_arg9 (by decide)
theorem step3_arg9 (c : Dev nD) : W3 m ρ c (Proc.devRef .tc main_arg9) = W2 m ρ c (Proc.devRef .tc main_arg9) := by
  stretch_keeps hostOps1
theorem step4_arg9 (c : Dev nD) : W4 m ρ c (Proc.devRef .tc main_arg9) = W3 m ρ c (Proc.devRef .tc main_arg9) :=
  W4_of_ne m ρ c main_arg9 (by decide)
theorem step5_arg9 (c : Dev nD) : W5 m ρ c (Proc.devRef .tc main_arg9) = W4 m ρ c (Proc.devRef .tc main_arg9) := by
  stretch_keeps hostOps2
theorem step6_arg9 (c : Dev nD) : W6 m ρ c (Proc.devRef .tc main_arg9) = W5 m ρ c (Proc.devRef .tc main_arg9) :=
  W6_of_ne m ρ c main_arg9 (by decide)
theorem step7_arg9 (c : Dev nD) : W7 m ρ c (Proc.devRef .tc main_arg9) = W6 m ρ c (Proc.devRef .tc main_arg9) := by
  stretch_keeps hostOps3
theorem at0_arg9 (c : Dev nD) : W0 m ρ c (Proc.devRef .tc main_arg9) = m ((c : Thread nD τ).loc main_arg9) := rfl
theorem at1_arg9 (c : Dev nD) : W1 m ρ c (Proc.devRef .tc main_arg9) = m ((c : Thread nD τ).loc main_arg9) :=
  (step1_arg9 m ρ c).trans (at0_arg9 m ρ c)
theorem at2_arg9 (c : Dev nD) : W2 m ρ c (Proc.devRef .tc main_arg9) = m ((c : Thread nD τ).loc main_arg9) :=
  (step2_arg9 m ρ c).trans (at1_arg9 m ρ c)
theorem at3_arg9 (c : Dev nD) : W3 m ρ c (Proc.devRef .tc main_arg9) = m ((c : Thread nD τ).loc main_arg9) :=
  (step3_arg9 m ρ c).trans (at2_arg9 m ρ c)
theorem at4_arg9 (c : Dev nD) : W4 m ρ c (Proc.devRef .tc main_arg9) = m ((c : Thread nD τ).loc main_arg9) :=
  (step4_arg9 m ρ c).trans (at3_arg9 m ρ c)
theorem at5_arg9 (c : Dev nD) : W5 m ρ c (Proc.devRef .tc main_arg9) = m ((c : Thread nD τ).loc main_arg9) :=
  (step5_arg9 m ρ c).trans (at4_arg9 m ρ c)
theorem at6_arg9 (c : Dev nD) : W6 m ρ c (Proc.devRef .tc main_arg9) = m ((c : Thread nD τ).loc main_arg9) :=
  (step6_arg9 m ρ c).trans (at5_arg9 m ρ c)
theorem at7_arg9 (c : Dev nD) : W7 m ρ c (Proc.devRef .tc main_arg9) = m ((c : Thread nD τ).loc main_arg9) :=
  (step7_arg9 m ρ c).trans (at6_arg9 m ρ c)

/-! ### `main_arg10` -/
theorem step1_arg10 (c : Dev nD) : W1 m ρ c (Proc.devRef .tc main_arg10) = W0 m ρ c (Proc.devRef .tc main_arg10) := by
  stretch_keeps hostOps0
theorem step2_arg10 (c : Dev nD) : W2 m ρ c (Proc.devRef .tc main_arg10) = W1 m ρ c (Proc.devRef .tc main_arg10) :=
  W2_of_ne m ρ c main_arg10 (by decide)
theorem step3_arg10 (c : Dev nD) : W3 m ρ c (Proc.devRef .tc main_arg10) = W2 m ρ c (Proc.devRef .tc main_arg10) := by
  stretch_keeps hostOps1
theorem step4_arg10 (c : Dev nD) : W4 m ρ c (Proc.devRef .tc main_arg10) = W3 m ρ c (Proc.devRef .tc main_arg10) :=
  W4_of_ne m ρ c main_arg10 (by decide)
theorem step5_arg10 (c : Dev nD) : W5 m ρ c (Proc.devRef .tc main_arg10) = W4 m ρ c (Proc.devRef .tc main_arg10) := by
  stretch_keeps hostOps2
theorem step6_arg10 (c : Dev nD) : W6 m ρ c (Proc.devRef .tc main_arg10) = W5 m ρ c (Proc.devRef .tc main_arg10) :=
  W6_of_ne m ρ c main_arg10 (by decide)
theorem step7_arg10 (c : Dev nD) : W7 m ρ c (Proc.devRef .tc main_arg10) = W6 m ρ c (Proc.devRef .tc main_arg10) := by
  stretch_keeps hostOps3
theorem step8_arg10 (c : Dev nD) : W8 m ρ c (Proc.devRef .tc main_arg10) = W7 m ρ c (Proc.devRef .tc main_arg10) :=
  W8_of_ne m ρ c main_arg10 (by decide)
theorem step9_arg10 (c : Dev nD) : W9 m ρ c (Proc.devRef .tc main_arg10) = W8 m ρ c (Proc.devRef .tc main_arg10) := by
  stretch_keeps hostOps4
theorem at0_arg10 (c : Dev nD) : W0 m ρ c (Proc.devRef .tc main_arg10) = m ((c : Thread nD τ).loc main_arg10) := rfl
theorem at1_arg10 (c : Dev nD) : W1 m ρ c (Proc.devRef .tc main_arg10) = m ((c : Thread nD τ).loc main_arg10) :=
  (step1_arg10 m ρ c).trans (at0_arg10 m ρ c)
theorem at2_arg10 (c : Dev nD) : W2 m ρ c (Proc.devRef .tc main_arg10) = m ((c : Thread nD τ).loc main_arg10) :=
  (step2_arg10 m ρ c).trans (at1_arg10 m ρ c)
theorem at3_arg10 (c : Dev nD) : W3 m ρ c (Proc.devRef .tc main_arg10) = m ((c : Thread nD τ).loc main_arg10) :=
  (step3_arg10 m ρ c).trans (at2_arg10 m ρ c)
theorem at4_arg10 (c : Dev nD) : W4 m ρ c (Proc.devRef .tc main_arg10) = m ((c : Thread nD τ).loc main_arg10) :=
  (step4_arg10 m ρ c).trans (at3_arg10 m ρ c)
theorem at5_arg10 (c : Dev nD) : W5 m ρ c (Proc.devRef .tc main_arg10) = m ((c : Thread nD τ).loc main_arg10) :=
  (step5_arg10 m ρ c).trans (at4_arg10 m ρ c)
theorem at6_arg10 (c : Dev nD) : W6 m ρ c (Proc.devRef .tc main_arg10) = m ((c : Thread nD τ).loc main_arg10) :=
  (step6_arg10 m ρ c).trans (at5_arg10 m ρ c)
theorem at7_arg10 (c : Dev nD) : W7 m ρ c (Proc.devRef .tc main_arg10) = m ((c : Thread nD τ).loc main_arg10) :=
  (step7_arg10 m ρ c).trans (at6_arg10 m ρ c)
theorem at8_arg10 (c : Dev nD) : W8 m ρ c (Proc.devRef .tc main_arg10) = m ((c : Thread nD τ).loc main_arg10) :=
  (step8_arg10 m ρ c).trans (at7_arg10 m ρ c)
theorem at9_arg10 (c : Dev nD) : W9 m ρ c (Proc.devRef .tc main_arg10) = m ((c : Thread nD τ).loc main_arg10) :=
  (step9_arg10 m ρ c).trans (at8_arg10 m ρ c)

/-! ### `main_arg11` -/
theorem step1_arg11 (c : Dev nD) : W1 m ρ c (Proc.devRef .tc main_arg11) = W0 m ρ c (Proc.devRef .tc main_arg11) := by
  stretch_keeps hostOps0
theorem step2_arg11 (c : Dev nD) : W2 m ρ c (Proc.devRef .tc main_arg11) = W1 m ρ c (Proc.devRef .tc main_arg11) :=
  W2_of_ne m ρ c main_arg11 (by decide)
theorem step3_arg11 (c : Dev nD) : W3 m ρ c (Proc.devRef .tc main_arg11) = W2 m ρ c (Proc.devRef .tc main_arg11) := by
  stretch_keeps hostOps1
theorem step4_arg11 (c : Dev nD) : W4 m ρ c (Proc.devRef .tc main_arg11) = W3 m ρ c (Proc.devRef .tc main_arg11) :=
  W4_of_ne m ρ c main_arg11 (by decide)
theorem step5_arg11 (c : Dev nD) : W5 m ρ c (Proc.devRef .tc main_arg11) = W4 m ρ c (Proc.devRef .tc main_arg11) := by
  stretch_keeps hostOps2
theorem step6_arg11 (c : Dev nD) : W6 m ρ c (Proc.devRef .tc main_arg11) = W5 m ρ c (Proc.devRef .tc main_arg11) :=
  W6_of_ne m ρ c main_arg11 (by decide)
theorem step7_arg11 (c : Dev nD) : W7 m ρ c (Proc.devRef .tc main_arg11) = W6 m ρ c (Proc.devRef .tc main_arg11) := by
  stretch_keeps hostOps3
theorem step8_arg11 (c : Dev nD) : W8 m ρ c (Proc.devRef .tc main_arg11) = W7 m ρ c (Proc.devRef .tc main_arg11) :=
  W8_of_ne m ρ c main_arg11 (by decide)
theorem step9_arg11 (c : Dev nD) : W9 m ρ c (Proc.devRef .tc main_arg11) = W8 m ρ c (Proc.devRef .tc main_arg11) := by
  stretch_keeps hostOps4
theorem at0_arg11 (c : Dev nD) : W0 m ρ c (Proc.devRef .tc main_arg11) = m ((c : Thread nD τ).loc main_arg11) := rfl
theorem at1_arg11 (c : Dev nD) : W1 m ρ c (Proc.devRef .tc main_arg11) = m ((c : Thread nD τ).loc main_arg11) :=
  (step1_arg11 m ρ c).trans (at0_arg11 m ρ c)
theorem at2_arg11 (c : Dev nD) : W2 m ρ c (Proc.devRef .tc main_arg11) = m ((c : Thread nD τ).loc main_arg11) :=
  (step2_arg11 m ρ c).trans (at1_arg11 m ρ c)
theorem at3_arg11 (c : Dev nD) : W3 m ρ c (Proc.devRef .tc main_arg11) = m ((c : Thread nD τ).loc main_arg11) :=
  (step3_arg11 m ρ c).trans (at2_arg11 m ρ c)
theorem at4_arg11 (c : Dev nD) : W4 m ρ c (Proc.devRef .tc main_arg11) = m ((c : Thread nD τ).loc main_arg11) :=
  (step4_arg11 m ρ c).trans (at3_arg11 m ρ c)
theorem at5_arg11 (c : Dev nD) : W5 m ρ c (Proc.devRef .tc main_arg11) = m ((c : Thread nD τ).loc main_arg11) :=
  (step5_arg11 m ρ c).trans (at4_arg11 m ρ c)
theorem at6_arg11 (c : Dev nD) : W6 m ρ c (Proc.devRef .tc main_arg11) = m ((c : Thread nD τ).loc main_arg11) :=
  (step6_arg11 m ρ c).trans (at5_arg11 m ρ c)
theorem at7_arg11 (c : Dev nD) : W7 m ρ c (Proc.devRef .tc main_arg11) = m ((c : Thread nD τ).loc main_arg11) :=
  (step7_arg11 m ρ c).trans (at6_arg11 m ρ c)
theorem at8_arg11 (c : Dev nD) : W8 m ρ c (Proc.devRef .tc main_arg11) = m ((c : Thread nD τ).loc main_arg11) :=
  (step8_arg11 m ρ c).trans (at7_arg11 m ρ c)
theorem at9_arg11 (c : Dev nD) : W9 m ρ c (Proc.devRef .tc main_arg11) = m ((c : Thread nD τ).loc main_arg11) :=
  (step9_arg11 m ρ c).trans (at8_arg11 m ρ c)

/-! ### `main_arg12` -/
theorem step1_arg12 (c : Dev nD) : W1 m ρ c (Proc.devRef .tc main_arg12) = W0 m ρ c (Proc.devRef .tc main_arg12) := by
  stretch_keeps hostOps0
theorem step2_arg12 (c : Dev nD) : W2 m ρ c (Proc.devRef .tc main_arg12) = W1 m ρ c (Proc.devRef .tc main_arg12) :=
  W2_of_ne m ρ c main_arg12 (by decide)
theorem step3_arg12 (c : Dev nD) : W3 m ρ c (Proc.devRef .tc main_arg12) = W2 m ρ c (Proc.devRef .tc main_arg12) := by
  stretch_keeps hostOps1
theorem step4_arg12 (c : Dev nD) : W4 m ρ c (Proc.devRef .tc main_arg12) = W3 m ρ c (Proc.devRef .tc main_arg12) :=
  W4_of_ne m ρ c main_arg12 (by decide)
theorem step5_arg12 (c : Dev nD) : W5 m ρ c (Proc.devRef .tc main_arg12) = W4 m ρ c (Proc.devRef .tc main_arg12) := by
  stretch_keeps hostOps2
theorem step6_arg12 (c : Dev nD) : W6 m ρ c (Proc.devRef .tc main_arg12) = W5 m ρ c (Proc.devRef .tc main_arg12) :=
  W6_of_ne m ρ c main_arg12 (by decide)
theorem step7_arg12 (c : Dev nD) : W7 m ρ c (Proc.devRef .tc main_arg12) = W6 m ρ c (Proc.devRef .tc main_arg12) := by
  stretch_keeps hostOps3
theorem step8_arg12 (c : Dev nD) : W8 m ρ c (Proc.devRef .tc main_arg12) = W7 m ρ c (Proc.devRef .tc main_arg12) :=
  W8_of_ne m ρ c main_arg12 (by decide)
theorem step9_arg12 (c : Dev nD) : W9 m ρ c (Proc.devRef .tc main_arg12) = W8 m ρ c (Proc.devRef .tc main_arg12) := by
  stretch_keeps hostOps4
theorem step10_arg12 (c : Dev nD) : W10 m ρ c (Proc.devRef .tc main_arg12) = W9 m ρ c (Proc.devRef .tc main_arg12) :=
  W10_of_ne m ρ c main_arg12 (by decide)
theorem step11_arg12 (c : Dev nD) : W11 m ρ c (Proc.devRef .tc main_arg12) = W10 m ρ c (Proc.devRef .tc main_arg12) := by
  stretch_keeps hostOps5
theorem at0_arg12 (c : Dev nD) : W0 m ρ c (Proc.devRef .tc main_arg12) = m ((c : Thread nD τ).loc main_arg12) := rfl
theorem at1_arg12 (c : Dev nD) : W1 m ρ c (Proc.devRef .tc main_arg12) = m ((c : Thread nD τ).loc main_arg12) :=
  (step1_arg12 m ρ c).trans (at0_arg12 m ρ c)
theorem at2_arg12 (c : Dev nD) : W2 m ρ c (Proc.devRef .tc main_arg12) = m ((c : Thread nD τ).loc main_arg12) :=
  (step2_arg12 m ρ c).trans (at1_arg12 m ρ c)
theorem at3_arg12 (c : Dev nD) : W3 m ρ c (Proc.devRef .tc main_arg12) = m ((c : Thread nD τ).loc main_arg12) :=
  (step3_arg12 m ρ c).trans (at2_arg12 m ρ c)
theorem at4_arg12 (c : Dev nD) : W4 m ρ c (Proc.devRef .tc main_arg12) = m ((c : Thread nD τ).loc main_arg12) :=
  (step4_arg12 m ρ c).trans (at3_arg12 m ρ c)
theorem at5_arg12 (c : Dev nD) : W5 m ρ c (Proc.devRef .tc main_arg12) = m ((c : Thread nD τ).loc main_arg12) :=
  (step5_arg12 m ρ c).trans (at4_arg12 m ρ c)
theorem at6_arg12 (c : Dev nD) : W6 m ρ c (Proc.devRef .tc main_arg12) = m ((c : Thread nD τ).loc main_arg12) :=
  (step6_arg12 m ρ c).trans (at5_arg12 m ρ c)
theorem at7_arg12 (c : Dev nD) : W7 m ρ c (Proc.devRef .tc main_arg12) = m ((c : Thread nD τ).loc main_arg12) :=
  (step7_arg12 m ρ c).trans (at6_arg12 m ρ c)
theorem at8_arg12 (c : Dev nD) : W8 m ρ c (Proc.devRef .tc main_arg12) = m ((c : Thread nD τ).loc main_arg12) :=
  (step8_arg12 m ρ c).trans (at7_arg12 m ρ c)
theorem at9_arg12 (c : Dev nD) : W9 m ρ c (Proc.devRef .tc main_arg12) = m ((c : Thread nD τ).loc main_arg12) :=
  (step9_arg12 m ρ c).trans (at8_arg12 m ρ c)
theorem at10_arg12 (c : Dev nD) : W10 m ρ c (Proc.devRef .tc main_arg12) = m ((c : Thread nD τ).loc main_arg12) :=
  (step10_arg12 m ρ c).trans (at9_arg12 m ρ c)
theorem at11_arg12 (c : Dev nD) : W11 m ρ c (Proc.devRef .tc main_arg12) = m ((c : Thread nD τ).loc main_arg12) :=
  (step11_arg12 m ρ c).trans (at10_arg12 m ρ c)

/-! ### `main_arg13` -/
theorem step1_arg13 (c : Dev nD) : W1 m ρ c (Proc.devRef .tc main_arg13) = W0 m ρ c (Proc.devRef .tc main_arg13) := by
  stretch_keeps hostOps0
theorem step2_arg13 (c : Dev nD) : W2 m ρ c (Proc.devRef .tc main_arg13) = W1 m ρ c (Proc.devRef .tc main_arg13) :=
  W2_of_ne m ρ c main_arg13 (by decide)
theorem step3_arg13 (c : Dev nD) : W3 m ρ c (Proc.devRef .tc main_arg13) = W2 m ρ c (Proc.devRef .tc main_arg13) := by
  stretch_keeps hostOps1
theorem step4_arg13 (c : Dev nD) : W4 m ρ c (Proc.devRef .tc main_arg13) = W3 m ρ c (Proc.devRef .tc main_arg13) :=
  W4_of_ne m ρ c main_arg13 (by decide)
theorem step5_arg13 (c : Dev nD) : W5 m ρ c (Proc.devRef .tc main_arg13) = W4 m ρ c (Proc.devRef .tc main_arg13) := by
  stretch_keeps hostOps2
theorem step6_arg13 (c : Dev nD) : W6 m ρ c (Proc.devRef .tc main_arg13) = W5 m ρ c (Proc.devRef .tc main_arg13) :=
  W6_of_ne m ρ c main_arg13 (by decide)
theorem step7_arg13 (c : Dev nD) : W7 m ρ c (Proc.devRef .tc main_arg13) = W6 m ρ c (Proc.devRef .tc main_arg13) := by
  stretch_keeps hostOps3
theorem step8_arg13 (c : Dev nD) : W8 m ρ c (Proc.devRef .tc main_arg13) = W7 m ρ c (Proc.devRef .tc main_arg13) :=
  W8_of_ne m ρ c main_arg13 (by decide)
theorem step9_arg13 (c : Dev nD) : W9 m ρ c (Proc.devRef .tc main_arg13) = W8 m ρ c (Proc.devRef .tc main_arg13) := by
  stretch_keeps hostOps4
theorem step10_arg13 (c : Dev nD) : W10 m ρ c (Proc.devRef .tc main_arg13) = W9 m ρ c (Proc.devRef .tc main_arg13) :=
  W10_of_ne m ρ c main_arg13 (by decide)
theorem step11_arg13 (c : Dev nD) : W11 m ρ c (Proc.devRef .tc main_arg13) = W10 m ρ c (Proc.devRef .tc main_arg13) := by
  stretch_keeps hostOps5
theorem at0_arg13 (c : Dev nD) : W0 m ρ c (Proc.devRef .tc main_arg13) = m ((c : Thread nD τ).loc main_arg13) := rfl
theorem at1_arg13 (c : Dev nD) : W1 m ρ c (Proc.devRef .tc main_arg13) = m ((c : Thread nD τ).loc main_arg13) :=
  (step1_arg13 m ρ c).trans (at0_arg13 m ρ c)
theorem at2_arg13 (c : Dev nD) : W2 m ρ c (Proc.devRef .tc main_arg13) = m ((c : Thread nD τ).loc main_arg13) :=
  (step2_arg13 m ρ c).trans (at1_arg13 m ρ c)
theorem at3_arg13 (c : Dev nD) : W3 m ρ c (Proc.devRef .tc main_arg13) = m ((c : Thread nD τ).loc main_arg13) :=
  (step3_arg13 m ρ c).trans (at2_arg13 m ρ c)
theorem at4_arg13 (c : Dev nD) : W4 m ρ c (Proc.devRef .tc main_arg13) = m ((c : Thread nD τ).loc main_arg13) :=
  (step4_arg13 m ρ c).trans (at3_arg13 m ρ c)
theorem at5_arg13 (c : Dev nD) : W5 m ρ c (Proc.devRef .tc main_arg13) = m ((c : Thread nD τ).loc main_arg13) :=
  (step5_arg13 m ρ c).trans (at4_arg13 m ρ c)
theorem at6_arg13 (c : Dev nD) : W6 m ρ c (Proc.devRef .tc main_arg13) = m ((c : Thread nD τ).loc main_arg13) :=
  (step6_arg13 m ρ c).trans (at5_arg13 m ρ c)
theorem at7_arg13 (c : Dev nD) : W7 m ρ c (Proc.devRef .tc main_arg13) = m ((c : Thread nD τ).loc main_arg13) :=
  (step7_arg13 m ρ c).trans (at6_arg13 m ρ c)
theorem at8_arg13 (c : Dev nD) : W8 m ρ c (Proc.devRef .tc main_arg13) = m ((c : Thread nD τ).loc main_arg13) :=
  (step8_arg13 m ρ c).trans (at7_arg13 m ρ c)
theorem at9_arg13 (c : Dev nD) : W9 m ρ c (Proc.devRef .tc main_arg13) = m ((c : Thread nD τ).loc main_arg13) :=
  (step9_arg13 m ρ c).trans (at8_arg13 m ρ c)
theorem at10_arg13 (c : Dev nD) : W10 m ρ c (Proc.devRef .tc main_arg13) = m ((c : Thread nD τ).loc main_arg13) :=
  (step10_arg13 m ρ c).trans (at9_arg13 m ρ c)
theorem at11_arg13 (c : Dev nD) : W11 m ρ c (Proc.devRef .tc main_arg13) = m ((c : Thread nD τ).loc main_arg13) :=
  (step11_arg13 m ρ c).trans (at10_arg13 m ρ c)

/-! ### `main_arg14` -/
theorem step1_arg14 (c : Dev nD) : W1 m ρ c (Proc.devRef .tc main_arg14) = W0 m ρ c (Proc.devRef .tc main_arg14) := by
  stretch_keeps hostOps0
theorem step2_arg14 (c : Dev nD) : W2 m ρ c (Proc.devRef .tc main_arg14) = W1 m ρ c (Proc.devRef .tc main_arg14) :=
  W2_of_ne m ρ c main_arg14 (by decide)
theorem step3_arg14 (c : Dev nD) : W3 m ρ c (Proc.devRef .tc main_arg14) = W2 m ρ c (Proc.devRef .tc main_arg14) := by
  stretch_keeps hostOps1
theorem step4_arg14 (c : Dev nD) : W4 m ρ c (Proc.devRef .tc main_arg14) = W3 m ρ c (Proc.devRef .tc main_arg14) :=
  W4_of_ne m ρ c main_arg14 (by decide)
theorem step5_arg14 (c : Dev nD) : W5 m ρ c (Proc.devRef .tc main_arg14) = W4 m ρ c (Proc.devRef .tc main_arg14) := by
  stretch_keeps hostOps2
theorem step6_arg14 (c : Dev nD) : W6 m ρ c (Proc.devRef .tc main_arg14) = W5 m ρ c (Proc.devRef .tc main_arg14) :=
  W6_of_ne m ρ c main_arg14 (by decide)
theorem step7_arg14 (c : Dev nD) : W7 m ρ c (Proc.devRef .tc main_arg14) = W6 m ρ c (Proc.devRef .tc main_arg14) := by
  stretch_keeps hostOps3
theorem step8_arg14 (c : Dev nD) : W8 m ρ c (Proc.devRef .tc main_arg14) = W7 m ρ c (Proc.devRef .tc main_arg14) :=
  W8_of_ne m ρ c main_arg14 (by decide)
theorem step9_arg14 (c : Dev nD) : W9 m ρ c (Proc.devRef .tc main_arg14) = W8 m ρ c (Proc.devRef .tc main_arg14) := by
  stretch_keeps hostOps4
theorem step10_arg14 (c : Dev nD) : W10 m ρ c (Proc.devRef .tc main_arg14) = W9 m ρ c (Proc.devRef .tc main_arg14) :=
  W10_of_ne m ρ c main_arg14 (by decide)
theorem step11_arg14 (c : Dev nD) : W11 m ρ c (Proc.devRef .tc main_arg14) = W10 m ρ c (Proc.devRef .tc main_arg14) := by
  stretch_keeps hostOps5
theorem at0_arg14 (c : Dev nD) : W0 m ρ c (Proc.devRef .tc main_arg14) = m ((c : Thread nD τ).loc main_arg14) := rfl
theorem at1_arg14 (c : Dev nD) : W1 m ρ c (Proc.devRef .tc main_arg14) = m ((c : Thread nD τ).loc main_arg14) :=
  (step1_arg14 m ρ c).trans (at0_arg14 m ρ c)
theorem at2_arg14 (c : Dev nD) : W2 m ρ c (Proc.devRef .tc main_arg14) = m ((c : Thread nD τ).loc main_arg14) :=
  (step2_arg14 m ρ c).trans (at1_arg14 m ρ c)
theorem at3_arg14 (c : Dev nD) : W3 m ρ c (Proc.devRef .tc main_arg14) = m ((c : Thread nD τ).loc main_arg14) :=
  (step3_arg14 m ρ c).trans (at2_arg14 m ρ c)
theorem at4_arg14 (c : Dev nD) : W4 m ρ c (Proc.devRef .tc main_arg14) = m ((c : Thread nD τ).loc main_arg14) :=
  (step4_arg14 m ρ c).trans (at3_arg14 m ρ c)
theorem at5_arg14 (c : Dev nD) : W5 m ρ c (Proc.devRef .tc main_arg14) = m ((c : Thread nD τ).loc main_arg14) :=
  (step5_arg14 m ρ c).trans (at4_arg14 m ρ c)
theorem at6_arg14 (c : Dev nD) : W6 m ρ c (Proc.devRef .tc main_arg14) = m ((c : Thread nD τ).loc main_arg14) :=
  (step6_arg14 m ρ c).trans (at5_arg14 m ρ c)
theorem at7_arg14 (c : Dev nD) : W7 m ρ c (Proc.devRef .tc main_arg14) = m ((c : Thread nD τ).loc main_arg14) :=
  (step7_arg14 m ρ c).trans (at6_arg14 m ρ c)
theorem at8_arg14 (c : Dev nD) : W8 m ρ c (Proc.devRef .tc main_arg14) = m ((c : Thread nD τ).loc main_arg14) :=
  (step8_arg14 m ρ c).trans (at7_arg14 m ρ c)
theorem at9_arg14 (c : Dev nD) : W9 m ρ c (Proc.devRef .tc main_arg14) = m ((c : Thread nD τ).loc main_arg14) :=
  (step9_arg14 m ρ c).trans (at8_arg14 m ρ c)
theorem at10_arg14 (c : Dev nD) : W10 m ρ c (Proc.devRef .tc main_arg14) = m ((c : Thread nD τ).loc main_arg14) :=
  (step10_arg14 m ρ c).trans (at9_arg14 m ρ c)
theorem at11_arg14 (c : Dev nD) : W11 m ρ c (Proc.devRef .tc main_arg14) = m ((c : Thread nD τ).loc main_arg14) :=
  (step11_arg14 m ρ c).trans (at10_arg14 m ρ c)

/-! ### `main_v10` -/
theorem step2_v10 (c : Dev nD) : W2 m ρ c (Proc.devRef .tc main_v10) = W1 m ρ c (Proc.devRef .tc main_v10) :=
  (W2_arr m ρ c 2).trans (((dat0 (V1 m ρ) c).arrAt_in 2 rfl _).trans (A_eq0 (V1 m ρ) c 2))
theorem step3_v10 (c : Dev nD) : W3 m ρ c (Proc.devRef .tc main_v10) = W2 m ρ c (Proc.devRef .tc main_v10) := by
  stretch_keeps hostOps1
theorem step4_v10 (c : Dev nD) : W4 m ρ c (Proc.devRef .tc main_v10) = W3 m ρ c (Proc.devRef .tc main_v10) :=
  (W4_arr m ρ c 4).trans (((dat1 (V3 m ρ) c).arrAt_in 4 rfl _).trans (A_eq1 (V3 m ρ) c 4))
theorem step5_v10 (c : Dev nD) : W5 m ρ c (Proc.devRef .tc main_v10) = W4 m ρ c (Proc.devRef .tc main_v10) := by
  stretch_keeps hostOps2
theorem step6_v10 (c : Dev nD) : W6 m ρ c (Proc.devRef .tc main_v10) = W5 m ρ c (Proc.devRef .tc main_v10) :=
  (W6_arr m ρ c 4).trans (((dat2 (V5 m ρ) c).arrAt_in 4 rfl _).trans (A_eq2 (V5 m ρ) c 4))
theorem step7_v10 (c : Dev nD) : W7 m ρ c (Proc.devRef .tc main_v10) = W6 m ρ c (Proc.devRef .tc main_v10) := by
  stretch_keeps hostOps3
theorem step8_v10 (c : Dev nD) : W8 m ρ c (Proc.devRef .tc main_v10) = W7 m ρ c (Proc.devRef .tc main_v10) :=
  (W8_arr m ρ c 4).trans (((dat3 (V7 m ρ) c).arrAt_in 4 rfl _).trans (A_eq3 (V7 m ρ) c 4))
theorem step9_v10 (c : Dev nD) : W9 m ρ c (Proc.devRef .tc main_v10) = W8 m ρ c (Proc.devRef .tc main_v10) := by
  stretch_keeps hostOps4
theorem at2_v10 (c : Dev nD) : W2 m ρ c (Proc.devRef .tc main_v10) = W1 m ρ c (Proc.devRef .tc main_v10) :=
  step2_v10 m ρ c
theorem at3_v10 (c : Dev nD) : W3 m ρ c (Proc.devRef .tc main_v10) = W1 m ρ c (Proc.devRef .tc main_v10) :=
  (step3_v10 m ρ c).trans (at2_v10 m ρ c)
theorem at4_v10 (c : Dev nD) : W4 m ρ c (Proc.devRef .tc main_v10) = W1 m ρ c (Proc.devRef .tc main_v10) :=
  (step4_v10 m ρ c).trans (at3_v10 m ρ c)
theorem at5_v10 (c : Dev nD) : W5 m ρ c (Proc.devRef .tc main_v10) = W1 m ρ c (Proc.devRef .tc main_v10) :=
  (step5_v10 m ρ c).trans (at4_v10 m ρ c)
theorem at6_v10 (c : Dev nD) : W6 m ρ c (Proc.devRef .tc main_v10) = W1 m ρ c (Proc.devRef .tc main_v10) :=
  (step6_v10 m ρ c).trans (at5_v10 m ρ c)
theorem at7_v10 (c : Dev nD) : W7 m ρ c (Proc.devRef .tc main_v10) = W1 m ρ c (Proc.devRef .tc main_v10) :=
  (step7_v10 m ρ c).trans (at6_v10 m ρ c)
theorem at8_v10 (c : Dev nD) : W8 m ρ c (Proc.devRef .tc main_v10) = W1 m ρ c (Proc.devRef .tc main_v10) :=
  (step8_v10 m ρ c).trans (at7_v10 m ρ c)
theorem at9_v10 (c : Dev nD) : W9 m ρ c (Proc.devRef .tc main_v10) = W1 m ρ c (Proc.devRef .tc main_v10) :=
  (step9_v10 m ρ c).trans (at8_v10 m ρ c)

/-! ### `main_v14` -/
theorem step2_v14 (c : Dev nD) : W2 m ρ c (Proc.devRef .tc main_v14) = W1 m ρ c (Proc.devRef .tc main_v14) :=
  W2_of_ne m ρ c main_v14 (by decide)
theorem step3_v14 (c : Dev nD) : W3 m ρ c (Proc.devRef .tc main_v14) = W2 m ρ c (Proc.devRef .tc main_v14) := by
  stretch_keeps hostOps1
theorem step4_v14 (c : Dev nD) : W4 m ρ c (Proc.devRef .tc main_v14) = W3 m ρ c (Proc.devRef .tc main_v14) :=
  (W4_arr m ρ c 1).trans (((dat1 (V3 m ρ) c).arrAt_in 1 rfl _).trans (A_eq1 (V3 m ρ) c 1))
theorem step5_v14 (c : Dev nD) : W5 m ρ c (Proc.devRef .tc main_v14) = W4 m ρ c (Proc.devRef .tc main_v14) := by
  stretch_keeps hostOps2
theorem step6_v14 (c : Dev nD) : W6 m ρ c (Proc.devRef .tc main_v14) = W5 m ρ c (Proc.devRef .tc main_v14) :=
  (W6_arr m ρ c 1).trans (((dat2 (V5 m ρ) c).arrAt_in 1 rfl _).trans (A_eq2 (V5 m ρ) c 1))
theorem step7_v14 (c : Dev nD) : W7 m ρ c (Proc.devRef .tc main_v14) = W6 m ρ c (Proc.devRef .tc main_v14) := by
  stretch_keeps hostOps3
theorem step8_v14 (c : Dev nD) : W8 m ρ c (Proc.devRef .tc main_v14) = W7 m ρ c (Proc.devRef .tc main_v14) :=
  (W8_arr m ρ c 1).trans (((dat3 (V7 m ρ) c).arrAt_in 1 rfl _).trans (A_eq3 (V7 m ρ) c 1))
theorem step9_v14 (c : Dev nD) : W9 m ρ c (Proc.devRef .tc main_v14) = W8 m ρ c (Proc.devRef .tc main_v14) := by
  stretch_keeps hostOps4
theorem step10_v14 (c : Dev nD) : W10 m ρ c (Proc.devRef .tc main_v14) = W9 m ρ c (Proc.devRef .tc main_v14) :=
  (W10_arr m ρ c 1).trans (((dat4 (V9 m ρ) c).arrAt_in 1 rfl _).trans (A_eq4 (V9 m ρ) c 1))
theorem step11_v14 (c : Dev nD) : W11 m ρ c (Proc.devRef .tc main_v14) = W10 m ρ c (Proc.devRef .tc main_v14) := by
  stretch_keeps hostOps5
theorem at2_v14 (c : Dev nD) : W2 m ρ c (Proc.devRef .tc main_v14) = W1 m ρ c (Proc.devRef .tc main_v14) :=
  step2_v14 m ρ c
theorem at3_v14 (c : Dev nD) : W3 m ρ c (Proc.devRef .tc main_v14) = W1 m ρ c (Proc.devRef .tc main_v14) :=
  (step3_v14 m ρ c).trans (at2_v14 m ρ c)
theorem at4_v14 (c : Dev nD) : W4 m ρ c (Proc.devRef .tc main_v14) = W1 m ρ c (Proc.devRef .tc main_v14) :=
  (step4_v14 m ρ c).trans (at3_v14 m ρ c)
theorem at5_v14 (c : Dev nD) : W5 m ρ c (Proc.devRef .tc main_v14) = W1 m ρ c (Proc.devRef .tc main_v14) :=
  (step5_v14 m ρ c).trans (at4_v14 m ρ c)
theorem at6_v14 (c : Dev nD) : W6 m ρ c (Proc.devRef .tc main_v14) = W1 m ρ c (Proc.devRef .tc main_v14) :=
  (step6_v14 m ρ c).trans (at5_v14 m ρ c)
theorem at7_v14 (c : Dev nD) : W7 m ρ c (Proc.devRef .tc main_v14) = W1 m ρ c (Proc.devRef .tc main_v14) :=
  (step7_v14 m ρ c).trans (at6_v14 m ρ c)
theorem at8_v14 (c : Dev nD) : W8 m ρ c (Proc.devRef .tc main_v14) = W1 m ρ c (Proc.devRef .tc main_v14) :=
  (step8_v14 m ρ c).trans (at7_v14 m ρ c)
theorem at9_v14 (c : Dev nD) : W9 m ρ c (Proc.devRef .tc main_v14) = W1 m ρ c (Proc.devRef .tc main_v14) :=
  (step9_v14 m ρ c).trans (at8_v14 m ρ c)
theorem at10_v14 (c : Dev nD) : W10 m ρ c (Proc.devRef .tc main_v14) = W1 m ρ c (Proc.devRef .tc main_v14) :=
  (step10_v14 m ρ c).trans (at9_v14 m ρ c)
theorem at11_v14 (c : Dev nD) : W11 m ρ c (Proc.devRef .tc main_v14) = W1 m ρ c (Proc.devRef .tc main_v14) :=
  (step11_v14 m ρ c).trans (at10_v14 m ρ c)

end Cert.KernelIdeal.Val

end
-- ==== Proof.KDot.lean ====
/-
  The block matrix product and the two broadcasts of a kernel body, read at one row and one column.

  A body multiplies a block of 5000 rows by a whole weight matrix into an accumulator of zeros; over the extended reals
  that is, entry by entry, the plain sum over the 128 shared features. A column of per-row factors is spread along the
  feature axis, and a vector of per-feature biases along the rows.
-/
import proofs.«131942_j13975823581721_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

theorem lhsW_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsW_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhsW_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhsW_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at row `p` and column `q`: the sum over the 128 shared features of the
    left block's row entry times the right matrix's column entry. -/
theorem matmulW_apply (l : FVec Ideal S5000x128 .bf16) (r : FVec Ideal S128x128 .bf16) (p : Fin 5000) (q : Fin 128) :
    matmul (F := Ideal) dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

theorem lhsH_0 (i : S5000x4.Idx) (q : dot_S5000x128_S128x4_S5000x4_1_0_0_1_n_n.contr.Idx) : (dot_S5000x128_S128x4_S5000x4_1_0_0_1_n_n.lhsIdx i q 0).val = (i 0).val := by
  unfold DotDims.lhsIdx
  rw [dif_neg (show ¬(0 : Fin S5000x128.rank) ∈ dot_S5000x128_S128x4_S5000x4_1_0_0_1_n_n.lhsBatch by decide), dif_pos (show (0 : Fin S5000x128.rank) ∈ dot_S5000x128_S128x4_S5000x4_1_0_0_1_n_n.lhsNonContracting by decide)]
  rfl
theorem lhsH_1 (i : S5000x4.Idx) (q : dot_S5000x128_S128x4_S5000x4_1_0_0_1_n_n.contr.Idx) : (dot_S5000x128_S128x4_S5000x4_1_0_0_1_n_n.lhsIdx i q 1).val = (q ⟨0, by decide⟩).val :=
  dot_S5000x128_S128x4_S5000x4_1_0_0_1_n_n.lhsIdx_val_of_single rfl i q
theorem rhsH_0 (i : S5000x4.Idx) (q : dot_S5000x128_S128x4_S5000x4_1_0_0_1_n_n.contr.Idx) : (dot_S5000x128_S128x4_S5000x4_1_0_0_1_n_n.rhsIdx i q 0).val = (q ⟨0, by decide⟩).val :=
  dot_S5000x128_S128x4_S5000x4_1_0_0_1_n_n.rhsIdx_val_of_single rfl i q
theorem rhsH_1 (i : S5000x4.Idx) (q : dot_S5000x128_S128x4_S5000x4_1_0_0_1_n_n.contr.Idx) : (dot_S5000x128_S128x4_S5000x4_1_0_0_1_n_n.rhsIdx i q 1).val = (i 1).val := by
  unfold DotDims.rhsIdx
  rw [dif_neg (show ¬(1 : Fin S128x4.rank) ∈ dot_S5000x128_S128x4_S5000x4_1_0_0_1_n_n.rhsBatch by decide), dif_pos (show (1 : Fin S128x4.rank) ∈ dot_S5000x128_S128x4_S5000x4_1_0_0_1_n_n.rhsNonContracting by decide)]
  rfl

/-- The block product into a zero accumulator, at row `p` and column `q`: the sum over the 128 shared features of the
    left block's row entry times the right matrix's column entry. -/
theorem matmulH_apply (l : FVec Ideal S5000x128 .bf16) (r : FVec Ideal S128x4 .bf16) (p : Fin 5000) (q : Fin 4) :
    matmul (F := Ideal) dot_S5000x128_S128x4_S5000x4_1_0_0_1_n_n none l r (constant S5000x4 .f32 0x00000000#32) (ix2 p q)
      = ∑ k : Fin 128, l (ix2 p k) * r (ix2 k q) := by
  refine (Ideal.matmul_constant_zero_apply dot_S5000x128_S128x4_S5000x4_1_0_0_1_n_n none l r (ix2 p q)).trans ?_
  rw [← Equiv.sum_comp (ValueIdx.contrEquiv1 dot_S5000x128_S128x4_S5000x4_1_0_0_1_n_n 128 rfl rfl).symm]
  refine Finset.sum_congr rfl fun k _ => ?_
  have hk := ValueIdx.contrEquiv1_symm_val dot_S5000x128_S128x4_S5000x4_1_0_0_1_n_n 128 rfl rfl k
  have el : dot_S5000x128_S128x4_S5000x4_1_0_0_1_n_n.lhsIdx (ix2 p q) ((ValueIdx.contrEquiv1 dot_S5000x128_S128x4_S5000x4_1_0_0_1_n_n 128 rfl rfl).symm k) = ix2 p k := funext fun a => Fin.ext (by
    match a with
    | ⟨0, _⟩ => exact lhsH_0 _ _
    | ⟨1, _⟩ => exact (lhsH_1 _ _).trans hk)
  have er : dot_S5000x128_S128x4_S5000x4_1_0_0_1_n_n.rhsIdx (ix2 p q) ((ValueIdx.contrEquiv1 dot_S5000x128_S128x4_S5000x4_1_0_0_1_n_n 128 rfl rfl).symm k) = ix2 k q := funext fun a => Fin.ext (by
    match a with
    | ⟨0, _⟩ => exact (rhsH_0 _ _).trans hk
    | ⟨1, _⟩ => exact rhsH_1 _ _)
  rw [el, er]

variable {α : Type}

/-- A column of one number per row, spread along the 128 features: entry (p, q) is the column's entry p. -/
theorem colSpread_apply (x : S5000x1.Idx → α) (p : Fin 5000) (q : Fin 128) :
    broadcastTo S5000x128 (shapeCast S5000x1 x shapeCasts_S5000x1_S5000x1) broadcasts_S5000x1_S5000x128 (ix2 p q) = x (ix2 p 0) := by
  rw [shapeCast_self]
  exact broadcastTo_apply x _ (ix2 p q) (ix2 p 0) (fun a => by
    match a with
    | ⟨0, _⟩ => rfl
    | ⟨1, _⟩ => rfl)

/-- A vector of one number per feature, spread along the rows: entry (p, q) is the vector's entry q. -/
theorem rowSpread_apply (b : S128.Idx → α) (p : Fin 5000) (q : Fin 128) :
    broadcastTo S5000x128 (shapeCast S1x128 b shapeCasts_S128_S1x128) broadcasts_S1x128_S5000x128 (ix2 p q) = b (ix1 q) := by
  refine (broadcastTo_apply _ _ (ix2 p q) (ix2 (0 : Fin 1) q) (fun a => by
    match a with
    | ⟨0, _⟩ => rfl
    | ⟨1, _⟩ => rfl)).trans ?_
  refine (shapeCast_addUnit_apply ![128] b _ (ix2 (0 : Fin 1) q)).trans (congrArg b (funext fun a => ?_))
  match a with
  | ⟨0, _⟩ => rfl

/-- The head's bias, one number per class, spread along the rows. -/
theorem clsSpread_apply (b : S4.Idx → α) (p : Fin 5000) (q : Fin 4) :
    broadcastTo S5000x4 (shapeCast S1x4 b shapeCasts_S4_S1x4) broadcasts_S1x4_S5000x4 (ix2 p q) = b (ix1 q) := by
  refine (broadcastTo_apply _ _ (ix2 p q) (ix2 (0 : Fin 1) q) (fun a => by
    match a with
    | ⟨0, _⟩ => rfl
    | ⟨1, _⟩ => rfl)).trans ?_
  refine (shapeCast_addUnit_apply ![4] b _ (ix2 (0 : Fin 1) q)).trans (congrArg b (funext fun a => ?_))
  match a with
  | ⟨0, _⟩ => rfl

end Cert.KernelIdeal.Val

end
-- ==== Proof.Spec.lean ====
/-
  The layer functions of the graph convolution network, as functions of whole arrays over the extended reals.

  A layer takes node features `h` (one row of 128 numbers per node), multiplies each row by a weight matrix, and scales
  row `r` by the node's out-degree factor `s r`: `proj`. After the edge aggregation the sums `a` are scaled by the
  in-degree factor, a bias is added along the feature axis, and the leaky rectifier keeps a nonnegative number and
  multiplies a negative one by the slope: `act`. The last layer multiplies by the 128 × 4 head matrix and adds the
  head's bias: `head`. Nothing here depends on how the rows are tiled.
-/
import Idealize.ShloMosaic.PureOps.Ideal
import Idealize.ShloMosaic.Lib.ValueIdx

noncomputable section

namespace Cert.Gcn

open Idealize.ShloMosaic Idealize.ShloMosaic.ValueIdx

/-- One number per node. -/
abbrev Nodes : Shape := ⟨1, ![50000]⟩
/-- One row of 128 features per node. -/
abbrev NodeFeat : Shape := ⟨2, ![50000, 128]⟩
/-- A layer's weight matrix. -/
abbrev Weight : Shape := ⟨2, ![128, 128]⟩
/-- One number per feature. -/
abbrev Feat : Shape := ⟨1, ![128]⟩
/-- The head's matrix. -/
abbrev HeadW : Shape := ⟨2, ![128, 4]⟩
/-- One number per class. -/
abbrev Classes : Shape := ⟨1, ![4]⟩
/-- One row of 4 class scores per node. -/
abbrev NodeCls : Shape := ⟨2, ![50000, 4]⟩

/-- The rectifier's threshold, the word of `0.0`. -/
abbrev zero : EReal := Ideal.ofBits .f32 0x00000000#32
/-- The rectifier's slope, the binary32 word nearest to one hundredth: the same word in both programs, never evaluated. -/
abbrev slope : EReal := Ideal.ofBits .f32 0x3C23D70A#32

/-- Row `r` of `h` times column `j` of `W`, scaled by the row's factor. -/
def projAt (h : NodeFeat.Idx → EReal) (W : Weight.Idx → EReal) (s : Nodes.Idx → EReal) (r : Fin 50000) (j : Fin 128) : EReal :=
  (∑ k : Fin 128, h (ix2 r k) * W (ix2 k j)) * s (ix1 r)

/-- The scaled projection of a layer, as a whole array. -/
def proj (h : NodeFeat.Idx → EReal) (W : Weight.Idx → EReal) (s : Nodes.Idx → EReal) : NodeFeat.Idx → EReal :=
  fun i => projAt h W s (i 0) (i 1)

/-- The leaky rectifier on one number. -/
def leaky (g : EReal) : EReal := Scalar.select (Ideal.cmp .oge g zero) g (slope * g)

/-- The aggregated sum at node `r`, feature `j`, scaled by the node's factor, plus the feature's bias, rectified. -/
def actAt (a : NodeFeat.Idx → EReal) (s : Nodes.Idx → EReal) (b : Feat.Idx → EReal) (r : Fin 50000) (j : Fin 128) : EReal :=
  leaky (a (ix2 r j) * s (ix1 r) + b (ix1 j))

/-- The activation of a layer, as a whole array. -/
def act (a : NodeFeat.Idx → EReal) (s : Nodes.Idx → EReal) (b : Feat.Idx → EReal) : NodeFeat.Idx → EReal :=
  fun i => actAt a s b (i 0) (i 1)

/-- Row `r` of `h` times column `j` of the head's matrix, plus the class's bias. -/
def headAt (h : NodeFeat.Idx → EReal) (W : HeadW.Idx → EReal) (b : Classes.Idx → EReal) (r : Fin 50000) (j : Fin 4) : EReal :=
  (∑ k : Fin 128, h (ix2 r k) * W (ix2 k j)) + b (ix1 j)

/-- The head, as a whole array. -/
def head (h : NodeFeat.Idx → EReal) (W : HeadW.Idx → EReal) (b : Classes.Idx → EReal) : NodeCls.Idx → EReal :=
  fun i => headAt h W b (i 0) (i 1)

/-- A middle layer: rectify the scaled aggregate, then project. -/
def mid (a : NodeFeat.Idx → EReal) (sIn : Nodes.Idx → EReal) (b : Feat.Idx → EReal) (W : Weight.Idx → EReal) (sOut : Nodes.Idx → EReal) :
    NodeFeat.Idx → EReal := proj (act a sIn b) W sOut

/-- The last layer: rectify the scaled aggregate, then apply the head. -/
def last (a : NodeFeat.Idx → EReal) (sIn : Nodes.Idx → EReal) (b : Feat.Idx → EReal) (W : HeadW.Idx → EReal) (bl : Classes.Idx → EReal) :
    NodeCls.Idx → EReal := head (act a sIn b) W bl

end Cert.Gcn

end
-- ==== Proof.Pay.lean ====
/-
  What each kernel body stores, read at one row `p` and one column `q` of its block.

  The first body stores the block's rows times the weight matrix, row `p` scaled by the row's out-degree factor. A middle
  body first forms, entry by entry, the aggregate times the row's in-degree factor plus the feature's bias, rectifies it
  (a nonnegative number is kept, a negative one multiplied by the slope), and then does the same product and scaling.
  The last body rectifies in the same way, multiplies by the head's matrix and adds the class's bias. Rounding to bf16
  before a product is the identity over the extended reals.
-/
import proofs.«131942_j13975823581721_1_alg».proof.Proof.KDot
import proofs.«131942_j13975823581721_1_alg».proof.Proof.Spec

noncomputable section

namespace Cert.KernelIdeal.Val

open Cert.KernelIdeal Cert.KernelIdeal.Gen Idealize.ShloMosaic Idealize.ShloMosaic.ValueIdx

/-- A block times a weight matrix, each row scaled by its entry of a column of factors (the shape every projecting body ends in). -/
def scaledProduct (h : FVec Ideal S5000x128 .f32) (w : FVec Ideal S128x128 .f32) (s : FVec Ideal S5000x1 .f32) : FVec Ideal S5000x128 .f32 :=
  mulf (matmul (F := Ideal) dot_S5000x128_S128x128_S5000x128_1_0_0_1_n_n none (truncf .bf16 h bitsLt_bf16_f32) (truncf .bf16 w bitsLt_bf16_f32) (constant S5000x128 .f32 0x00000000#32))
    (broadcastTo S5000x128 (shapeCast S5000x1 s shapeCasts_S5000x1_S5000x1) broadcasts_S5000x1_S5000x128)

theorem scaledProduct_apply (h : FVec Ideal S5000x128 .f32) (w : FVec Ideal S128x128 .f32) (s : FVec Ideal S5000x1 .f32) (p : Fin 5000) (q : Fin 128) :
    scaledProduct h w s (ix2 p q) = (∑ k : Fin 128, h (ix2 p k) * w (ix2 k q)) * s (ix2 p 0) := by
  show FloatOps.mulf (matmul (F := Ideal) dot_S5000x128_S128x128_S5000x128_1_0_0_1_n_n none (truncf .bf16 h bitsLt_bf16_f32) (truncf .bf16 w bitsLt_bf16_f32) (constant S5000x128 .f32 0x00000000#32) (ix2 p q))
    (broadcastTo S5000x128 (shapeCast S5000x1 s shapeCasts_S5000x1_S5000x1) broadcasts_S5000x1_S5000x128 (ix2 p q)) = _
  rw [matmulW_apply, colSpread_apply]
  rfl

/-- The aggregate scaled by the rows' in-degree factors plus the features' biases, before the rectifier. -/
def preAct (v0 : FVec Ideal S5000x128 .f32) (v2 : FVec Ideal S5000x1 .f32) (v6 : FVec Ideal S128 .f32) : FVec Ideal S5000x128 .f32 :=
  addf (mulf (shapeCast S5000x128 v0 shapeCasts_S5000x128_S5000x128)
      (broadcastTo S5000x128 (shapeCast S5000x1 v2 shapeCasts_S5000x1_S5000x1) broadcasts_S5000x1_S5000x128))
    (broadcastTo S5000x128 (shapeCast S1x128 v6 shapeCasts_S128_S1x128) broadcasts_S1x128_S5000x128)

theorem preAct_apply (v0 : FVec Ideal S5000x128 .f32) (v2 : FVec Ideal S5000x1 .f32) (v6 : FVec Ideal S128 .f32) (p : Fin 5000) (k : Fin 128) :
    preAct v0 v2 v6 (ix2 p k) = v0 (ix2 p k) * v2 (ix2 p 0) + v6 (ix1 k) := by
  show FloatOps.addf (FloatOps.mulf (shapeCast S5000x128 v0 shapeCasts_S5000x128_S5000x128 (ix2 p k))
      (broadcastTo S5000x128 (shapeCast S5000x1 v2 shapeCasts_S5000x1_S5000x1) broadcasts_S5000x1_S5000x128 (ix2 p k)))
    (broadcastTo S5000x128 (shapeCast S1x128 v6 shapeCasts_S128_S1x128) broadcasts_S1x128_S5000x128 (ix2 p k)) = _
  rw [shapeCast_self, colSpread_apply, rowSpread_apply]
  rfl

/-- The rectified block: where the pre-activation is at least zero it is kept, elsewhere it is multiplied by the slope. -/
def rectified (v0 : FVec Ideal S5000x128 .f32) (v2 : FVec Ideal S5000x1 .f32) (v6 : FVec Ideal S128 .f32) : FVec Ideal S5000x128 .f32 :=
  select (cmpf .oge (preAct v0 v2 v6) (broadcast S5000x128 (Scalar.ofBits (F := Ideal) .f32 0x00000000#32))) (preAct v0 v2 v6)
    (mulf (broadcast S5000x128 (Scalar.ofBits (F := Ideal) .f32 0x3C23D70A#32)) (preAct v0 v2 v6))

theorem rectified_apply (v0 : FVec Ideal S5000x128 .f32) (v2 : FVec Ideal S5000x1 .f32) (v6 : FVec Ideal S128 .f32) (p : Fin 5000) (k : Fin 128) :
    rectified v0 v2 v6 (ix2 p k) = Cert.Gcn.leaky (v0 (ix2 p k) * v2 (ix2 p 0) + v6 (ix1 k)) := by
  show Scalar.select (FloatOps.cmpf .oge (preAct v0 v2 v6 (ix2 p k)) (Scalar.ofBits (F := Ideal) .f32 0x00000000#32)) (preAct v0 v2 v6 (ix2 p k))
    (FloatOps.mulf (Scalar.ofBits (F := Ideal) .f32 0x3C23D70A#32) (preAct v0 v2 v6 (ix2 p k))) = _
  rw [preAct_apply]
  rfl

/-- The first layer's stored value: the block of inputs times the weight matrix, each row scaled by its out-degree factor. -/
theorem pay0_eq (v0 : Vec Ideal S5000x128 .f32) (v2 : Vec Ideal S128x128 .f32) (v5 : Vec Ideal S5000x1 .f32) :
    k0_pay1 (F := Ideal) v0 v2 v5 = scaledProduct v0 v2 v5 := rfl

/-- Middle layer 1's stored value: the rectified block times the weight matrix, each row scaled by its out-degree factor. -/
theorem pay1_eq (v0 : Vec Ideal S5000x128 .f32) (v2 : Vec Ideal S5000x1 .f32) (v6 : Vec Ideal S128 .f32) (v16 : Vec Ideal S128x128 .f32) (v19 : Vec Ideal S5000x1 .f32) :
    k1_pay1 (F := Ideal) v0 v2 v6 v16 v19 = scaledProduct (rectified v0 v2 v6) v16 v19 := rfl

/-- Middle layer 2's stored value: the rectified block times the weight matrix, each row scaled by its out-degree factor. -/
theorem pay2_eq (v0 : Vec Ideal S5000x128 .f32) (v2 : Vec Ideal S5000x1 .f32) (v6 : Vec Ideal S128 .f32) (v16 : Vec Ideal S128x128 .f32) (v19 : Vec Ideal S5000x1 .f32) :
    k2_pay1 (F := Ideal) v0 v2 v6 v16 v19 = scaledProduct (rectified v0 v2 v6) v16 v19 := rfl

/-- Middle layer 3's stored value: the rectified block times the weight matrix, each row scaled by its out-degree factor. -/
theorem pay3_eq (v0 : Vec Ideal S5000x128 .f32) (v2 : Vec Ideal S5000x1 .f32) (v6 : Vec Ideal S128 .f32) (v16 : Vec Ideal S128x128 .f32) (v19 : Vec Ideal S5000x1 .f32) :
    k3_pay1 (F := Ideal) v0 v2 v6 v16 v19 = scaledProduct (rectified v0 v2 v6) v16 v19 := rfl

/-- Middle layer 4's stored value: the rectified block times the weight matrix, each row scaled by its out-degree factor. -/
theorem pay4_eq (v0 : Vec Ideal S5000x128 .f32) (v2 : Vec Ideal S5000x1 .f32) (v6 : Vec Ideal S128 .f32) (v16 : Vec Ideal S128x128 .f32) (v19 : Vec Ideal S5000x1 .f32) :
    k4_pay1 (F := Ideal) v0 v2 v6 v16 v19 = scaledProduct (rectified v0 v2 v6) v16 v19 := rfl

/-- The rectified block times the head's matrix plus the classes' biases spread along the rows. -/
def headOf (h : FVec Ideal S5000x128 .f32) (w : FVec Ideal S128x4 .f32) (b : FVec Ideal S4 .f32) : FVec Ideal S5000x4 .f32 :=
  addf (matmul (F := Ideal) dot_S5000x128_S128x4_S5000x4_1_0_0_1_n_n none (truncf .bf16 h bitsLt_bf16_f32) (truncf .bf16 w bitsLt_bf16_f32) (constant S5000x4 .f32 0x00000000#32))
    (broadcastTo S5000x4 (shapeCast S1x4 b shapeCasts_S4_S1x4) broadcasts_S1x4_S5000x4)

theorem headOf_apply (h : FVec Ideal S5000x128 .f32) (w : FVec Ideal S128x4 .f32) (b : FVec Ideal S4 .f32) (p : Fin 5000) (q : Fin 4) :
    headOf h w b (ix2 p q) = (∑ k : Fin 128, h (ix2 p k) * w (ix2 k q)) + b (ix1 q) := by
  show FloatOps.addf (matmul (F := Ideal) dot_S5000x128_S128x4_S5000x4_1_0_0_1_n_n none (truncf .bf16 h bitsLt_bf16_f32) (truncf .bf16 w bitsLt_bf16_f32) (constant S5000x4 .f32 0x00000000#32) (ix2 p q))
    (broadcastTo S5000x4 (shapeCast S1x4 b shapeCasts_S4_S1x4) broadcasts_S1x4_S5000x4 (ix2 p q)) = _
  rw [matmulH_apply, clsSpread_apply]
  rfl

/-- The last layer's stored value. -/
theorem pay5_eq (v0 : Vec Ideal S5000x128 .f32) (v2 : Vec Ideal S5000x1 .f32) (v6 : Vec Ideal S128 .f32) (v16 : Vec Ideal S128x4 .f32) (v19 : Vec Ideal S4 .f32) :
    k5_pay1 (F := Ideal) v0 v2 v6 v16 v19 = headOf (rectified v0 v2 v6) v16 v19 := rfl

end Cert.KernelIdeal.Val

end
-- ==== Proof.Blocks.lean ====
/-
  One block against the whole arrays: a kernel body's stored value at an entry of its block is the layer function of the
  whole arrays at the entry's place in them.

  A block holds 5000 consecutive rows, starting at row `base`: its row `p` is the arrays' row `base + p`. The weight
  matrices, the bias vectors and the head's matrix are read whole. A column of one factor per row is read as one number
  per node (`col`).
-/
import proofs.«131942_j13975823581721_1_alg».proof.Proof.Pay

noncomputable section

namespace Cert.KernelIdeal.Val

open Cert.KernelIdeal Cert.KernelIdeal.Gen Idealize.ShloMosaic Idealize.ShloMosaic.ValueIdx

/-- A column array of one number per node, as a function of the node. -/
def col (a : S50000x1.Idx → EReal) : Cert.Gcn.Nodes.Idx → EReal := fun i => a (ix2 (i 0) 0)

/-- The first layer's block: the stored entry is the scaled projection of the whole arrays at the entry's place. -/
theorem proj_block (A0 : S50000x128.Idx → EReal) (A1 : S128x128.Idx → EReal) (A2 : S50000x1.Idx → EReal)
    (x0 : FVec Ideal S5000x128 .f32) (x1 : FVec Ideal S128x128 .f32) (x2 : FVec Ideal S5000x1 .f32)
    (base : Nat) (hb : base + 5000 ≤ 50000)
    (h0 : ∀ (p : Fin 5000) (k : Fin 128), x0 (ix2 p k) = A0 (ix2 (⟨base + p.val, by have := p.isLt; omega⟩ : Fin 50000) k))
    (h1 : ∀ (k : Fin 128) (q : Fin 128), x1 (ix2 k q) = A1 (ix2 k q))
    (h2 : ∀ p : Fin 5000, x2 (ix2 p 0) = A2 (ix2 (⟨base + p.val, by have := p.isLt; omega⟩ : Fin 50000) 0))
    (j : S5000x128.Idx) (i : S50000x128.Idx) (hi0 : (i 0).val = base + (j 0).val) (hi1 : (i 1).val = (j 1).val) :
    scaledProduct x0 x1 x2 j = Cert.Gcn.proj A0 A1 (col A2) i := by
  obtain ⟨p, q, rfl⟩ : ∃ (p : Fin 5000) (q : Fin 128), j = ix2 p q := ⟨j 0, j 1, eq_ix2 j⟩
  rw [scaledProduct_apply]
  have hr : i 0 = (⟨base + p.val, by have := p.isLt; omega⟩ : Fin 50000) := Fin.ext hi0
  have hc : i 1 = q := Fin.ext hi1
  unfold Cert.Gcn.proj Cert.Gcn.projAt col
  rw [hr, hc]
  simp only [h0, h1, h2]

/-- A middle layer's block: the stored entry is the layer function of the whole arrays at the entry's place. -/
theorem mid_block (A0 : S50000x128.Idx → EReal) (A1 : S50000x1.Idx → EReal) (A2 : S128.Idx → EReal) (A3 : S128x128.Idx → EReal) (A4 : S50000x1.Idx → EReal)
    (x0 : FVec Ideal S5000x128 .f32) (x1 : FVec Ideal S5000x1 .f32) (x2 : FVec Ideal S128 .f32) (x3 : FVec Ideal S128x128 .f32) (x4 : FVec Ideal S5000x1 .f32)
    (base : Nat) (hb : base + 5000 ≤ 50000)
    (h0 : ∀ (p : Fin 5000) (k : Fin 128), x0 (ix2 p k) = A0 (ix2 (⟨base + p.val, by have := p.isLt; omega⟩ : Fin 50000) k))
    (h1 : ∀ p : Fin 5000, x1 (ix2 p 0) = A1 (ix2 (⟨base + p.val, by have := p.isLt; omega⟩ : Fin 50000) 0))
    (h2 : ∀ k : Fin 128, x2 (ix1 k) = A2 (ix1 k))
    (h3 : ∀ (k : Fin 128) (q : Fin 128), x3 (ix2 k q) = A3 (ix2 k q))
    (h4 : ∀ p : Fin 5000, x4 (ix2 p 0) = A4 (ix2 (⟨base + p.val, by have := p.isLt; omega⟩ : Fin 50000) 0))
    (j : S5000x128.Idx) (i : S50000x128.Idx) (hi0 : (i 0).val = base + (j 0).val) (hi1 : (i 1).val = (j 1).val) :
    scaledProduct (rectified x0 x1 x2) x3 x4 j = Cert.Gcn.mid A0 (col A1) A2 A3 (col A4) i := by
  obtain ⟨p, q, rfl⟩ : ∃ (p : Fin 5000) (q : Fin 128), j = ix2 p q := ⟨j 0, j 1, eq_ix2 j⟩
  rw [scaledProduct_apply]
  have hr : i 0 = (⟨base + p.val, by have := p.isLt; omega⟩ : Fin 50000) := Fin.ext hi0
  have hc : i 1 = q := Fin.ext hi1
  unfold Cert.Gcn.mid Cert.Gcn.proj Cert.Gcn.projAt Cert.Gcn.act Cert.Gcn.actAt col
  rw [hr, hc]
  simp only [rectified_apply, h0, h1, h2, h3, h4]

/-- The last layer's block: the stored entry is the head of the rectified whole arrays at the entry's place. -/
theorem last_block (A0 : S50000x128.Idx → EReal) (A1 : S50000x1.Idx → EReal) (A2 : S128.Idx → EReal) (A3 : S128x4.Idx → EReal) (A4 : S4.Idx → EReal)
    (x0 : FVec Ideal S5000x128 .f32) (x1 : FVec Ideal S5000x1 .f32) (x2 : FVec Ideal S128 .f32) (x3 : FVec Ideal S128x4 .f32) (x4 : FVec Ideal S4 .f32)
    (base : Nat) (hb : base + 5000 ≤ 50000)
    (h0 : ∀ (p : Fin 5000) (k : Fin 128), x0 (ix2 p k) = A0 (ix2 (⟨base + p.val, by have := p.isLt; omega⟩ : Fin 50000) k))
    (h1 : ∀ p : Fin 5000, x1 (ix2 p 0) = A1 (ix2 (⟨base + p.val, by have := p.isLt; omega⟩ : Fin 50000) 0))
    (h2 : ∀ k : Fin 128, x2 (ix1 k) = A2 (ix1 k))
    (h3 : ∀ (k : Fin 128) (q : Fin 4), x3 (ix2 k q) = A3 (ix2 k q))
    (h4 : ∀ q : Fin 4, x4 (ix1 q) = A4 (ix1 q))
    (j : S5000x4.Idx) (i : S50000x4.Idx) (hi0 : (i 0).val = base + (j 0).val) (hi1 : (i 1).val = (j 1).val) :
    headOf (rectified x0 x1 x2) x3 x4 j = Cert.Gcn.last A0 (col A1) A2 A3 A4 i := by
  obtain ⟨p, q, rfl⟩ : ∃ (p : Fin 5000) (q : Fin 4), j = ix2 p q := ⟨j 0, j 1, eq_ix2 j⟩
  rw [headOf_apply]
  have hr : i 0 = (⟨base + p.val, by have := p.isLt; omega⟩ : Fin 50000) := Fin.ext hi0
  have hc : i 1 = q := Fin.ext hi1
  unfold Cert.Gcn.last Cert.Gcn.head Cert.Gcn.headAt Cert.Gcn.act Cert.Gcn.actAt col
  rw [hr, hc]
  simp only [rectified_apply, h0, h1, h2, h3, h4]

end Cert.KernelIdeal.Val

end
-- ==== Proof.Region0.lean ====
/-
  The first kernel region as one function of whole arrays.

  The grid has ten points; point t works on rows 5000·t … 5000·t + 4999 of the input features, of the column of
  out-degree factors and of the output, and on the whole weight matrix. Every point writes its block back, and the ten
  blocks tile the 50000 rows, so after the region the output array is, entry by entry, the scaled projection of the
  arrays the region found.
-/
import proofs.«131942_j13975823581721_1_alg».proof.Proof.Gen.KernelIdeal.Frame
import proofs.«131942_j13975823581721_1_alg».proof.Proof.Blocks

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block origin of every window is the zero offset. -/
theorem origin2 : (![0, 0] : Fin 2 → Nat) = fun _ => 0 := funext fun a => by fin_cases a <;> rfl
theorem origin1 : (![0] : Fin 1 → Nat) = fun _ => 0 := funext fun a => by fin_cases a <;> rfl

/-- The index maps over the ten points: the row-blocked windows move with the output's row block, the weight matrix stays. -/
theorem blockIdx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem blockOnto0 : ∀ q0 : Fin 10, ∃ t : Fin cfg0.N, win0_3.index t = ![q0.val, 0] :=
  (by decide +kernel : ∀ q0 : Fin 10, ∃ t : Fin grid0.N, win0_3.index t = ![q0.val, 0])

/-- What point `t` writes back is block `t` of the scaled projection of the arrays the region found. -/
theorem flushed0 (c : Dev nD) (t : Fin cfg0.N) :
    (dat0 V c).flushed 3 t = ((cfg0.win 3).blk t).view.read (Elt Ideal)
      (Cert.Gcn.proj (V c main_arg0) (V c main_arg3) (col (V c main_v10))) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x128) origin2, View.ld_unit_zero (S := S5000x1) origin2]
  rw [pay0_eq]
  obtain ⟨e0, e1, e2, e3, e4, e5, e6, e7⟩ := blockIdx0 t
  funext j
  show scaledProduct (iblk0 V c 0 t) (iblk0 V c 1 t) (iblk0 V c 2 t) j
    = Cert.Gcn.proj (V c main_arg0) (V c main_arg3) (col (V c main_v10)) (((cfg0.win 3).blk t).view.emb j)
  refine proj_block (V c main_arg0) (V c main_arg3) (V c main_v10) (iblk0 V c 0 t) (iblk0 V c 1 t) (iblk0 V c 2 t)
    (win0_3.index t (0 : Fin 2) * 5000) (by omega) (fun p k => ?_) (fun k q => ?_) (fun p => ?_) j (((cfg0.win 3).blk t).view.emb j) ?_ ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  · show V c main_arg3 (((cfg0.win 1).blk t).view.emb (ix2 k q)) = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c main_v10 (((cfg0.win 2).blk t).view.emb (ix2 p 0)) = V c main_v10 _
    refine congrArg (V c main_v10) (funext fun a => Fin.ext ?_)
    match a with
    | ⟨0, _⟩ => show win0_2.index t (0 : Fin 2) * 5000 + 1 * p.val = win0_3.index t (0 : Fin 2) * 5000 + p.val; omega
    | ⟨1, _⟩ => show win0_2.index t (1 : Fin 2) * 1 + 1 * 0 = 0; omega
  · show win0_3.index t (0 : Fin 2) * 5000 + 1 * (j 0).val = win0_3.index t (0 : Fin 2) * 5000 + (j 0).val; omega
  · show win0_3.index t (1 : Fin 2) * 128 + 1 * (j 1).val = (j 1).val; omega

/-- An entry of the output array is in point `t`'s block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Row `r` is in the block of the point whose row block is `r / 5000`. -/
theorem covered0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := blockOnto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region its output array is the scaled projection of the arrays it found. -/
theorem value0 (c : Dev nD) :
    (dat0 V c).arrAt 3 cfg0.N = Cert.Gcn.proj (V c main_arg0) (V c main_arg3) (col (V c main_v10)) :=
  (dat0 V c).arrAt_eq_of_cover 3 (Cert.Gcn.proj (V c main_arg0) (V c main_arg3) (col (V c main_v10)))
    (fun t _ => flushed0 V c t) covered0

end Cert.KernelIdeal.Val

end
-- ==== Proof.Region1.lean ====
/-
  Middle kernel region 1 as one function of whole arrays.

  Point t of the ten works on rows 5000·t … 5000·t + 4999 of the aggregated sums, of the two columns of degree factors
  and of the output, and on the whole bias vector and weight matrix. The ten blocks it writes back tile the rows, so after
  the region the output array is, entry by entry, the middle layer's function of the arrays the region found.
-/
import proofs.«131942_j13975823581721_1_alg».proof.Proof.Gen.KernelIdeal.Frame
import proofs.«131942_j13975823581721_1_alg».proof.Proof.Blocks
import proofs.«131942_j13975823581721_1_alg».proof.Proof.Region0

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the ten points: the row-blocked windows move with the output's row block, the bias and the weights stay. -/
theorem blockIdx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = win1_5.index t (0 : Fin 2) ∧ win1_4.index t (1 : Fin 2) = 0
    ∧ win1_5.index t (1 : Fin 2) = 0 ∧ win1_5.index t (0 : Fin 2) ≤ 9 :=
  (by decide +kernel : ∀ t : Fin grid1.N, _)

/-- Every row block is some point's. -/
theorem blockOnto1 : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of the middle layer's function of the arrays the region found. -/
theorem flushed1 (c : Dev nD) (t : Fin cfg1.N) :
    (dat1 V c).flushed 5 t = ((cfg1.win 5).blk t).view.read (Elt Ideal)
      (Cert.Gcn.mid (V c main_v25) (col (V c main_v14)) (V c main_arg4) (V c main_arg5) (col (V c main_v10))) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S128x128) origin2, View.ld_unit_zero (S := S5000x1) origin2, View.ld_unit_zero (S := S128) origin1]
  rw [pay1_eq]
  obtain ⟨e0, e1, e2, e3, e4, e5, e6, e7, e8, e9, e10⟩ := blockIdx1 t
  funext j
  show scaledProduct (rectified (iblk1 V c 0 t) (iblk1 V c 1 t) (iblk1 V c 2 t)) (iblk1 V c 3 t) (iblk1 V c 4 t) j
    = Cert.Gcn.mid (V c main_v25) (col (V c main_v14)) (V c main_arg4) (V c main_arg5) (col (V c main_v10)) (((cfg1.win 5).blk t).view.emb j)
  refine mid_block (V c main_v25) (V c main_v14) (V c main_arg4) (V c main_arg5) (V c main_v10)
    (iblk1 V c 0 t) (iblk1 V c 1 t) (iblk1 V c 2 t) (iblk1 V c 3 t) (iblk1 V c 4 t)
    (win1_5.index t (0 : Fin 2) * 5000) (by omega) (fun p k => ?_) (fun p => ?_) (fun k => ?_) (fun k q => ?_) (fun p => ?_) j (((cfg1.win 5).blk t).view.emb j) ?_ ?_
  · show V c main_v25 (((cfg1.win 0).blk t).view.emb (ix2 p k)) = V c main_v25 _
    refine congrArg (V c main_v25) (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 128 + 1 * k.val = k.val; omega
  · show V c main_v14 (((cfg1.win 1).blk t).view.emb (ix2 p 0)) = V c main_v14 _
    refine congrArg (V c main_v14) (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 1 + 1 * 0 = 0; omega
  · show V c main_arg4 (((cfg1.win 2).blk t).view.emb (ix1 k)) = V c main_arg4 _
    refine congrArg (V c main_arg4) (funext fun a => Fin.ext ?_)
    match a with
    | ⟨0, _⟩ => show win1_2.index t (0 : Fin 1) * 128 + 1 * k.val = k.val; omega
  · show V c main_arg5 (((cfg1.win 3).blk t).view.emb (ix2 k q)) = V c main_arg5 _
    refine congrArg (V c main_arg5) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · show V c main_v10 (((cfg1.win 4).blk t).view.emb (ix2 p 0)) = V c main_v10 _
    refine congrArg (V c main_v10) (funext fun a => Fin.ext ?_)
    match a with
    | ⟨0, _⟩ => show win1_4.index t (0 : Fin 2) * 5000 + 1 * p.val = win1_5.index t (0 : Fin 2) * 5000 + p.val; omega
    | ⟨1, _⟩ => show win1_4.index t (1 : Fin 2) * 1 + 1 * 0 = 0; omega
  · show win1_5.index t (0 : Fin 2) * 5000 + 1 * (j 0).val = win1_5.index t (0 : Fin 2) * 5000 + (j 0).val; omega
  · show win1_5.index t (1 : Fin 2) * 128 + 1 * (j 1).val = (j 1).val; omega

/-- An entry of the output array is in point `t`'s block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

/-- Row `r` is in the block of the point whose row block is `r / 5000`. -/
theorem covered1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := blockOnto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the region its output array is the middle layer's function of the arrays it found. -/
theorem value1 (c : Dev nD) :
    (dat1 V c).arrAt 5 cfg1.N = Cert.Gcn.mid (V c main_v25) (col (V c main_v14)) (V c main_arg4) (V c main_arg5) (col (V c main_v10)) :=
  (dat1 V c).arrAt_eq_of_cover 5 (Cert.Gcn.mid (V c main_v25) (col (V c main_v14)) (V c main_arg4) (V c main_arg5) (col (V c main_v10)))
    (fun t _ => flushed1 V c t) covered1

end Cert.KernelIdeal.Val

end
-- ==== Proof.Region2.lean ====
/-
  Middle kernel region 2 as one function of whole arrays.

  Point t of the ten works on rows 5000·t … 5000·t + 4999 of the aggregated sums, of the two columns of degree factors
  and of the output, and on the whole bias vector and weight matrix. The ten blocks it writes back tile the rows, so after
  the region the output array is, entry by entry, the middle layer's function of the arrays the region found.
-/
import proofs.«131942_j13975823581721_1_alg».proof.Proof.Gen.KernelIdeal.Frame
import proofs.«131942_j13975823581721_1_alg».proof.Proof.Blocks
import proofs.«131942_j13975823581721_1_alg».proof.Proof.Region0

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the ten points: the row-blocked windows move with the output's row block, the bias and the weights stay. -/
theorem blockIdx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = win2_5.index t (0 : Fin 2) ∧ win2_4.index t (1 : Fin 2) = 0
    ∧ win2_5.index t (1 : Fin 2) = 0 ∧ win2_5.index t (0 : Fin 2) ≤ 9 :=
  (by decide +kernel : ∀ t : Fin grid2.N, _)

/-- Every row block is some point's. -/
theorem blockOnto2 : ∀ q0 : Fin 10, ∃ t : Fin cfg2.N, win2_5.index t = ![q0.val, 0] :=
  (by decide +kernel : ∀ q0 : Fin 10, ∃ t : Fin grid2.N, win2_5.index t = ![q0.val, 0])

/-- What point `t` writes back is block `t` of the middle layer's function of the arrays the region found. -/
theorem flushed2 (c : Dev nD) (t : Fin cfg2.N) :
    (dat2 V c).flushed 5 t = ((cfg2.win 5).blk t).view.read (Elt Ideal)
      (Cert.Gcn.mid (V c main_v36) (col (V c main_v14)) (V c main_arg6) (V c main_arg7) (col (V c main_v10))) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S128x128) origin2, View.ld_unit_zero (S := S5000x1) origin2, View.ld_unit_zero (S := S128) origin1]
  rw [pay2_eq]
  obtain ⟨e0, e1, e2, e3, e4, e5, e6, e7, e8, e9, e10⟩ := blockIdx2 t
  funext j
  show scaledProduct (rectified (iblk2 V c 0 t) (iblk2 V c 1 t) (iblk2 V c 2 t)) (iblk2 V c 3 t) (iblk2 V c 4 t) j
    = Cert.Gcn.mid (V c main_v36) (col (V c main_v14)) (V c main_arg6) (V c main_arg7) (col (V c main_v10)) (((cfg2.win 5).blk t).view.emb j)
  refine mid_block (V c main_v36) (V c main_v14) (V c main_arg6) (V c main_arg7) (V c main_v10)
    (iblk2 V c 0 t) (iblk2 V c 1 t) (iblk2 V c 2 t) (iblk2 V c 3 t) (iblk2 V c 4 t)
    (win2_5.index t (0 : Fin 2) * 5000) (by omega) (fun p k => ?_) (fun p => ?_) (fun k => ?_) (fun k q => ?_) (fun p => ?_) j (((cfg2.win 5).blk t).view.emb j) ?_ ?_
  · show V c main_v36 (((cfg2.win 0).blk t).view.emb (ix2 p k)) = V c main_v36 _
    refine congrArg (V c main_v36) (funext fun a => Fin.ext ?_)
    match a with
    | ⟨0, _⟩ => show win2_0.index t (0 : Fin 2) * 5000 + 1 * p.val = win2_5.index t (0 : Fin 2) * 5000 + p.val; omega
    | ⟨1, _⟩ => show win2_0.index t (1 : Fin 2) * 128 + 1 * k.val = k.val; omega
  · show V c main_v14 (((cfg2.win 1).blk t).view.emb (ix2 p 0)) = V c main_v14 _
    refine congrArg (V c main_v14) (funext fun a => Fin.ext ?_)
    match a with
    | ⟨0, _⟩ => show win2_1.index t (0 : Fin 2) * 5000 + 1 * p.val = win2_5.index t (0 : Fin 2) * 5000 + p.val; omega
    | ⟨1, _⟩ => show win2_1.index t (1 : Fin 2) * 1 + 1 * 0 = 0; omega
  · show V c main_arg6 (((cfg2.win 2).blk t).view.emb (ix1 k)) = V c main_arg6 _
    refine congrArg (V c main_arg6) (funext fun a => Fin.ext ?_)
    match a with
    | ⟨0, _⟩ => show win2_2.index t (0 : Fin 1) * 128 + 1 * k.val = k.val; omega
  · show V c main_arg7 (((cfg2.win 3).blk t).view.emb (ix2 k q)) = V c main_arg7 _
    refine congrArg (V c main_arg7) (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · show V c main_v10 (((cfg2.win 4).blk t).view.emb (ix2 p 0)) = V c main_v10 _
    refine congrArg (V c main_v10) (funext fun a => Fin.ext ?_)
    match a with
    | ⟨0, _⟩ => show win2_4.index t (0 : Fin 2) * 5000 + 1 * p.val = win2_5.index t (0 : Fin 2) * 5000 + p.val; omega
    | ⟨1, _⟩ => show win2_4.index t (1 : Fin 2) * 1 + 1 * 0 = 0; omega
  · show win2_5.index t (0 : Fin 2) * 5000 + 1 * (j 0).val = win2_5.index t (0 : Fin 2) * 5000 + (j 0).val; omega
  · show win2_5.index t (1 : Fin 2) * 128 + 1 * (j 1).val = (j 1).val; omega

/-- An entry of the output array is in point `t`'s block iff each coordinate is in the block's range on its axis. -/
theorem mem_block2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v37).slice (win2_5.rect t)).set ↔ _
  rw [View.set_slice_whole, Rect.mem_set_unit]
  exact Iff.rfl

/-- Row `r` is in the block of the point whose row block is `r / 5000`. -/
theorem covered2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := blockOnto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the region its output array is the middle layer's function of the arrays it found. -/
theorem value2 (c : Dev nD) :
    (dat2 V c).arrAt 5 cfg2.N = Cert.Gcn.mid (V c main_v36) (col (V c main_v14)) (V c main_arg6) (V c main_arg7) (col (V c main_v10)) :=
  (dat2 V c).arrAt_eq_of_cover 5 (Cert.Gcn.mid (V c main_v36) (col (V c main_v14)) (V c main_arg6) (V c main_arg7) (col (V c main_v10)))
    (fun t _ => flushed2 V c t) covered2

end Cert.KernelIdeal.Val

end
-- ==== Proof.Region3.lean ====
/-
  Middle kernel region 3 as one function of whole arrays.

  Point t of the ten works on rows 5000·t … 5000·t + 4999 of the aggregated sums, of the two columns of degree factors
  and of the output, and on the whole bias vector and weight matrix. The ten blocks it writes back tile the rows, so after
  the region the output array is, entry by entry, the middle layer's function of the arrays the region found.
-/
import proofs.«131942_j13975823581721_1_alg».proof.Proof.Gen.KernelIdeal.Frame
import proofs.«131942_j13975823581721_1_alg».proof.Proof.Blocks
import proofs.«131942_j13975823581721_1_alg».proof.Proof.Region0

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the ten points: the row-blocked windows move with the output's row block, the bias and the weights stay. -/
theorem blockIdx3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 1) = 0
    ∧ win3_3.index t (0 : Fin 2) = 0 ∧ win3_3.index t (1 : Fin 2) = 0
    ∧ win3_4.index t (0 : Fin 2) = win3_5.index t (0 : Fin 2) ∧ win3_4.index t (1 : Fin 2) = 0
    ∧ win3_5.index t (1 : Fin 2) = 0 ∧ win3_5.index t (0 : Fin 2) ≤ 9 :=
  (by decide +kernel : ∀ t : Fin grid3.N, _)

/-- Every row block is some point's. -/
theorem blockOnto3 : ∀ q0 : Fin 10, ∃ t : Fin cfg3.N, win3_5.index t = ![q0.val, 0] :=
  (by decide +kernel : ∀ q0 : Fin 10, ∃ t : Fin grid3.N, win3_5.index t = ![q0.val, 0])

/-- What point `t` writes back is block `t` of the middle layer's function of the arrays the region found. -/
theorem flushed3 (c : Dev nD) (t : Fin cfg3.N) :
    (dat3 V c).flushed 5 t = ((cfg3.win 5).blk t).view.read (Elt Ideal)
      (Cert.Gcn.mid (V c main_v47) (col (V c main_v14)) (V c main_arg8) (V c main_arg9) (col (V c main_v10))) := by
  show (cfg3.win 5).cut (grid3.coords t) ((dat3 V c).after 5 t) = _
  rw [after3_5]
  unfold out3_5
  rw [View.canon_unit_zero origin2]
  simp only [View.ld_unit_zero (S := S5000x128) origin2, View.ld_unit_zero (S := S128x128) origin2, View.ld_unit_zero (S := S5000x1) origin2, View.ld_unit_zero (S := S128) origin1]
  rw [pay3_eq]
  obtain ⟨e0, e1, e2, e3, e4, e5, e6, e7, e8, e9, e10⟩ := blockIdx3 t
  funext j
  show scaledProduct (rectified (iblk3 V c 0 t) (iblk3 V c 1 t) (iblk3 V c 2 t)) (iblk3 V c 3 t) (iblk3 V c 4 t) j
    = Cert.Gcn.mid (V c main_v47) (col (V c main_v14)) (V c main_arg8) (V c main_arg9) (col (V c main_v10)) (((cfg3.win 5).blk t).view.emb j)
  refine mid_block (V c main_v47) (V c main_v14) (V c main_arg8) (V c main_arg9) (V c main_v10)
    (iblk3 V c 0 t) (iblk3 V c 1 t) (iblk3 V c 2 t) (iblk3 V c 3 t) (iblk3 V c 4 t)
    (win3_5.index t (0 : Fin 2) * 5000) (by omega) (fun p k => ?_) (fun p => ?_) (fun k => ?_) (fun k q => ?_) (fun p => ?_) j (((cfg3.win 5).blk t).view.emb j) ?_ ?_
  · show V c main_v47 (((cfg3.win 0).blk t).view.emb (ix2 p k)) = V c main_v47 _
    refine congrArg (V c main_v47) (funext fun a => Fin.ext ?_)
    match a with
    | ⟨0, _⟩ => show win3_0.index t (0 : Fin 2) * 5000 + 1 * p.val = win3_5.index t (0 : Fin 2) * 5000 + p.val; omega
    | ⟨1, _⟩ => show win3_0.index t (1 : Fin 2) * 128 + 1 * k.val = k.val; omega
  · show V c main_v14 (((cfg3.win 1).blk t).view.emb (ix2 p 0)) = V c main_v14 _
    refine congrArg (V c main_v14) (funext fun a => Fin.ext ?_)
    match a with
    | ⟨0, _⟩ => show win3_1.index t (0 : Fin 2) * 5000 + 1 * p.val = win3_5.index t (0 : Fin 2) * 5000 + p.val; omega
    | ⟨1, _⟩ => show win3_1.index t (1 : Fin 2) * 1 + 1 * 0 = 0; omega
  · show V c main_arg8 (((cfg3.win 2).blk t).view.emb (ix1 k)) = V c main_arg8 _
    refine congrArg (V c main_arg8) (funext fun a => Fin.ext ?_)
    match a with
    | ⟨0, _⟩ => show win3_2.index t (0 : Fin 1) * 128 + 1 * k.val = k.val; omega
  · show V c main_arg9 (((cfg3.win 3).blk t).view.emb (ix2 k q)) = V c main_arg9 _
    refine congrArg (V c main_arg9) (funext fun a => Fin.ext ?_)
    match a with
    | ⟨0, _⟩ => show win3_3.index t (0 : Fin 2) * 128 + 1 * k.val = k.val; omega
    | ⟨1, _⟩ => show win3_3.index t (1 : Fin 2) * 128 + 1 * q.val = q.val; omega
  · show V c main_v10 (((cfg3.win 4).blk t).view.emb (ix2 p 0)) = V c main_v10 _
    refine congrArg (V c main_v10) (funext fun a => Fin.ext ?_)
    match a with
    | ⟨0, _⟩ => show win3_4.index t (0 : Fin 2) * 5000 + 1 * p.val = win3_5.index t (0 : Fin 2) * 5000 + p.val; omega
    | ⟨1, _⟩ => show win3_4.index t (1 : Fin 2) * 1 + 1 * 0 = 0; omega
  · show win3_5.index t (0 : Fin 2) * 5000 + 1 * (j 0).val = win3_5.index t (0 : Fin 2) * 5000 + (j 0).val; omega
  · show win3_5.index t (1 : Fin 2) * 128 + 1 * (j 1).val = (j 1).val; omega

/-- An entry of the output array is in point `t`'s block iff each coordinate is in the block's range on its axis. -/
theorem mem_block3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v48).slice (win3_5.rect t)).set ↔ _
  rw [View.set_slice_whole, Rect.mem_set_unit]
  exact Iff.rfl

/-- Row `r` is in the block of the point whose row block is `r / 5000`. -/
theorem covered3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := blockOnto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_block3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- After the region its output array is the middle layer's function of the arrays it found. -/
theorem value3 (c : Dev nD) :
    (dat3 V c).arrAt 5 cfg3.N = Cert.Gcn.mid (V c main_v47) (col (V c main_v14)) (V c main_arg8) (V c main_arg9) (col (V c main_v10)) :=
  (dat3 V c).arrAt_eq_of_cover 5 (Cert.Gcn.mid (V c main_v47) (col (V c main_v14)) (V c main_arg8) (V c main_arg9) (col (V c main_v10)))
    (fun t _ => flushed3 V c t) covered3

end Cert.KernelIdeal.Val

end
-- ==== Proof.Region4.lean ====
/-
  Middle kernel region 4 as one function of whole arrays.

  Point t of the ten works on rows 5000·t … 5000·t + 4999 of the aggregated sums, of the two columns of degree factors
  and of the output, and on the whole bias vector and weight matrix. The ten blocks it writes back tile the rows, so after
  the region the output array is, entry by entry, the middle layer's function of the arrays the region found.
-/
import proofs.«131942_j13975823581721_1_alg».proof.Proof.Gen.KernelIdeal.Frame
import proofs.«131942_j13975823581721_1_alg».proof.Proof.Blocks
import proofs.«131942_j13975823581721_1_alg».proof.Proof.Region0

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the ten points: the row-blocked windows move with the output's row block, the bias and the weights stay. -/
theorem blockIdx4 : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 1) = 0
    ∧ win4_3.index t (0 : Fin 2) = 0 ∧ win4_3.index t (1 : Fin 2) = 0
    ∧ win4_4.index t (0 : Fin 2) = win4_5.index t (0 : Fin 2) ∧ win4_4.index t (1 : Fin 2) = 0
    ∧ win4_5.index t (1 : Fin 2) = 0 ∧ win4_5.index t (0 : Fin 2) ≤ 9 :=
  (by decide +kernel : ∀ t : Fin grid4.N, _)

/-- Every row block is some point's. -/
theorem blockOnto4 : ∀ q0 : Fin 10, ∃ t : Fin cfg4.N, win4_5.index t = ![q0.val, 0] :=
  (by decide +kernel : ∀ q0 : Fin 10, ∃ t : Fin grid4.N, win4_5.index t = ![q0.val, 0])

/-- What point `t` writes back is block `t` of the middle layer's function of the arrays the region found. -/
theorem flushed4 (c : Dev nD) (t : Fin cfg4.N) :
    (dat4 V c).flushed 5 t = ((cfg4.win 5).blk t).view.read (Elt Ideal)
      (Cert.Gcn.mid (V c main_v58) (col (V c main_v14)) (V c main_arg10) (V c main_arg11) (col (V c main_v10))) := by
  show (cfg4.win 5).cut (grid4.coords t) ((dat4 V c).after 5 t) = _
  rw [after4_5]
  unfold out4_5
  rw [View.canon_unit_zero origin2]
  simp only [View.ld_unit_zero (S := S5000x128) origin2, View.ld_unit_zero (S := S128x128) origin2, View.ld_unit_zero (S := S5000x1) origin2, View.ld_unit_zero (S := S128) origin1]
  rw [pay4_eq]
  obtain ⟨e0, e1, e2, e3, e4, e5, e6, e7, e8, e9, e10⟩ := blockIdx4 t
  funext j
  show scaledProduct (rectified (iblk4 V c 0 t) (iblk4 V c 1 t) (iblk4 V c 2 t)) (iblk4 V c 3 t) (iblk4 V c 4 t) j
    = Cert.Gcn.mid (V c main_v58) (col (V c main_v14)) (V c main_arg10) (V c main_arg11) (col (V c main_v10)) (((cfg4.win 5).blk t).view.emb j)
  refine mid_block (V c main_v58) (V c main_v14) (V c main_arg10) (V c main_arg11) (V c main_v10)
    (iblk4 V c 0 t) (iblk4 V c 1 t) (iblk4 V c 2 t) (iblk4 V c 3 t) (iblk4 V c 4 t)
    (win4_5.index t (0 : Fin 2) * 5000) (by omega) (fun p k => ?_) (fun p => ?_) (fun k => ?_) (fun k q => ?_) (fun p => ?_) j (((cfg4.win 5).blk t).view.emb j) ?_ ?_
  · show V c main_v58 (((cfg4.win 0).blk t).view.emb (ix2 p k)) = V c main_v58 _
    refine congrArg (V c main_v58) (funext fun a => Fin.ext ?_)
    match a with
    | ⟨0, _⟩ => show win4_0.index t (0 : Fin 2) * 5000 + 1 * p.val = win4_5.index t (0 : Fin 2) * 5000 + p.val; omega
    | ⟨1, _⟩ => show win4_0.index t (1 : Fin 2) * 128 + 1 * k.val = k.val; omega
  · show V c main_v14 (((cfg4.win 1).blk t).view.emb (ix2 p 0)) = V c main_v14 _
    refine congrArg (V c main_v14) (funext fun a => Fin.ext ?_)
    match a with
    | ⟨0, _⟩ => show win4_1.index t (0 : Fin 2) * 5000 + 1 * p.val = win4_5.index t (0 : Fin 2) * 5000 + p.val; omega
    | ⟨1, _⟩ => show win4_1.index t (1 : Fin 2) * 1 + 1 * 0 = 0; omega
  · show V c main_arg10 (((cfg4.win 2).blk t).view.emb (ix1 k)) = V c main_arg10 _
    refine congrArg (V c main_arg10) (funext fun a => Fin.ext ?_)
    match a with
    | ⟨0, _⟩ => show win4_2.index t (0 : Fin 1) * 128 + 1 * k.val = k.val; omega
  · show V c main_arg11 (((cfg4.win 3).blk t).view.emb (ix2 k q)) = V c main_arg11 _
    refine congrArg (V c main_arg11) (funext fun a => Fin.ext ?_)
    match a with
    | ⟨0, _⟩ => show win4_3.index t (0 : Fin 2) * 128 + 1 * k.val = k.val; omega
    | ⟨1, _⟩ => show win4_3.index t (1 : Fin 2) * 128 + 1 * q.val = q.val; omega
  · show V c main_v10 (((cfg4.win 4).blk t).view.emb (ix2 p 0)) = V c main_v10 _
    refine congrArg (V c main_v10) (funext fun a => Fin.ext ?_)
    match a with
    | ⟨0, _⟩ => show win4_4.index t (0 : Fin 2) * 5000 + 1 * p.val = win4_5.index t (0 : Fin 2) * 5000 + p.val; omega
    | ⟨1, _⟩ => show win4_4.index t (1 : Fin 2) * 1 + 1 * 0 = 0; omega
  · show win4_5.index t (0 : Fin 2) * 5000 + 1 * (j 0).val = win4_5.index t (0 : Fin 2) * 5000 + (j 0).val; omega
  · show win4_5.index t (1 : Fin 2) * 128 + 1 * (j 1).val = (j 1).val; omega

/-- An entry of the output array is in point `t`'s block iff each coordinate is in the block's range on its axis. -/
theorem mem_block4 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v59).slice (win4_5.rect t)).set ↔ _
  rw [View.set_slice_whole, Rect.mem_set_unit]
  exact Iff.rfl

/-- Row `r` is in the block of the point whose row block is `r / 5000`. -/
theorem covered4 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := blockOnto4 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_block4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- After the region its output array is the middle layer's function of the arrays it found. -/
theorem value4 (c : Dev nD) :
    (dat4 V c).arrAt 5 cfg4.N = Cert.Gcn.mid (V c main_v58) (col (V c main_v14)) (V c main_arg10) (V c main_arg11) (col (V c main_v10)) :=
  (dat4 V c).arrAt_eq_of_cover 5 (Cert.Gcn.mid (V c main_v58) (col (V c main_v14)) (V c main_arg10) (V c main_arg11) (col (V c main_v10)))
    (fun t _ => flushed4 V c t) covered4

end Cert.KernelIdeal.Val

end
-- ==== Proof.Region5.lean ====
/-
  The last kernel region as one function of whole arrays.

  Point t of the ten works on rows 5000·t … 5000·t + 4999 of the aggregated sums, of the column of in-degree factors and
  of the output's four class scores, and on the whole bias vector, the whole head matrix and the head's whole bias. The ten
  blocks it writes back tile the rows, so after the region the output array is, entry by entry, the last layer's function
  of the arrays the region found.
-/
import proofs.«131942_j13975823581721_1_alg».proof.Proof.Gen.KernelIdeal.Frame
import proofs.«131942_j13975823581721_1_alg».proof.Proof.Blocks
import proofs.«131942_j13975823581721_1_alg».proof.Proof.Region0

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the ten points: the row-blocked windows move with the output's row block, the rest stay. -/
theorem blockIdx5 : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (1 : Fin 2) = 0 ∧ win5_5.index t (0 : Fin 2) ≤ 9 :=
  (by decide +kernel : ∀ t : Fin grid5.N, _)

/-- Every row block is some point's. -/
theorem blockOnto5 : ∀ q0 : Fin 10, ∃ t : Fin cfg5.N, win5_5.index t = ![q0.val, 0] :=
  (by decide +kernel : ∀ q0 : Fin 10, ∃ t : Fin grid5.N, win5_5.index t = ![q0.val, 0])

/-- What point `t` writes back is block `t` of the last layer's function of the arrays the region found. -/
theorem flushed5 (c : Dev nD) (t : Fin cfg5.N) :
    (dat5 V c).flushed 5 t = ((cfg5.win 5).blk t).view.read (Elt Ideal)
      (Cert.Gcn.last (V c main_v69) (col (V c main_v14)) (V c main_arg12) (V c main_arg13) (V c main_arg14)) := by
  show (cfg5.win 5).cut (grid5.coords t) ((dat5 V c).after 5 t) = _
  rw [after5_5]
  unfold out5_5
  rw [View.canon_unit_zero origin2]
  simp only [View.ld_unit_zero (S := S5000x128) origin2, View.ld_unit_zero (S := S128x4) origin2, View.ld_unit_zero (S := S5000x1) origin2, View.ld_unit_zero (S := S128) origin1, View.ld_unit_zero (S := S4) origin1]
  rw [pay5_eq]
  obtain ⟨e0, e1, e2, e3, e4, e5, e6, e7, e8, e9⟩ := blockIdx5 t
  funext j
  show headOf (rectified (iblk5 V c 0 t) (iblk5 V c 1 t) (iblk5 V c 2 t)) (iblk5 V c 3 t) (iblk5 V c 4 t) j
    = Cert.Gcn.last (V c main_v69) (col (V c main_v14)) (V c main_arg12) (V c main_arg13) (V c main_arg14) (((cfg5.win 5).blk t).view.emb j)
  refine last_block (V c main_v69) (V c main_v14) (V c main_arg12) (V c main_arg13) (V c main_arg14)
    (iblk5 V c 0 t) (iblk5 V c 1 t) (iblk5 V c 2 t) (iblk5 V c 3 t) (iblk5 V c 4 t)
    (win5_5.index t (0 : Fin 2) * 5000) (by omega) (fun p k => ?_) (fun p => ?_) (fun k => ?_) (fun k q => ?_) (fun q => ?_) j (((cfg5.win 5).blk t).view.emb j) ?_ ?_
  · show V c main_v69 (((cfg5.win 0).blk t).view.emb (ix2 p k)) = V c main_v69 _
    refine congrArg (V c main_v69) (funext fun a => Fin.ext ?_)
    match a with
    | ⟨0, _⟩ => show win5_0.index t (0 : Fin 2) * 5000 + 1 * p.val = win5_5.index t (0 : Fin 2) * 5000 + p.val; omega
    | ⟨1, _⟩ => show win5_0.index t (1 : Fin 2) * 128 + 1 * k.val = k.val; omega
  · show V c main_v14 (((cfg5.win 1).blk t).view.emb (ix2 p 0)) = V c main_v14 _
    refine congrArg (V c main_v14) (funext fun a => Fin.ext ?_)
    match a with
    | ⟨0, _⟩ => show win5_1.index t (0 : Fin 2) * 5000 + 1 * p.val = win5_5.index t (0 : Fin 2) * 5000 + p.val; omega
    | ⟨1, _⟩ => show win5_1.index t (1 : Fin 2) * 1 + 1 * 0 = 0; omega
  · show V c main_arg12 (((cfg5.win 2).blk t).view.emb (ix1 k)) = V c main_arg12 _
    refine congrArg (V c main_arg12) (funext fun a => Fin.ext ?_)
    match a with
    | ⟨0, _⟩ => show win5_2.index t (0 : Fin 1) * 128 + 1 * k.val = k.val; omega
  · show V c main_arg13 (((cfg5.win 3).blk t).view.emb (ix2 k q)) = V c main_arg13 _
    refine congrArg (V c main_arg13) (funext fun a => Fin.ext ?_)
    match a with
    | ⟨0, _⟩ => show win5_3.index t (0 : Fin 2) * 128 + 1 * k.val = k.val; omega
    | ⟨1, _⟩ => show win5_3.index t (1 : Fin 2) * 4 + 1 * q.val = q.val; omega
  · show V c main_arg14 (((cfg5.win 4).blk t).view.emb (ix1 q)) = V c main_arg14 _
    refine congrArg (V c main_arg14) (funext fun a => Fin.ext ?_)
    match a with
    | ⟨0, _⟩ => show win5_4.index t (0 : Fin 1) * 4 + 1 * q.val = q.val; omega
  · show win5_5.index t (0 : Fin 2) * 5000 + 1 * (j 0).val = win5_5.index t (0 : Fin 2) * 5000 + (j 0).val; omega
  · show win5_5.index t (1 : Fin 2) * 4 + 1 * (j 1).val = (j 1).val; omega

/-- An entry of the output array is in point `t`'s block iff each coordinate is in the block's range on its axis. -/
theorem mem_block5 (t : Fin cfg5.N) (i : S50000x4.Idx) :
    i ∈ ((cfg5.win 5).blk t).view.set ↔ ∀ a : Fin 2, win5_5.index t a * S5000x4.size a ≤ (i a).val ∧ (i a).val < win5_5.index t a * S5000x4.size a + S5000x4.size a := by
  show i ∈ ((View.whole main_v70).slice (win5_5.rect t)).set ↔ _
  rw [View.set_slice_whole, Rect.mem_set_unit]
  exact Iff.rfl

/-- Row `r` is in the block of the point whose row block is `r / 5000`. -/
theorem covered5 (i : S50000x4.Idx) : ∃ t : Fin cfg5.N, (cfg5.win 5).flush t = true ∧ i ∈ ((cfg5.win 5).blk t).view.set := by
  have hi0 : (i 0).val < 50000 := (i 0).isLt
  have hi1 : (i 1).val < 4 := (i 1).isLt
  obtain ⟨t, ht⟩ := blockOnto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_block5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 4 ≤ (i 1).val ∧ (i 1).val < win5_5.index t (1 : Fin 2) * 4 + 4; omega

/-- After the region its output array is the last layer's function of the arrays it found. -/
theorem value5 (c : Dev nD) :
    (dat5 V c).arrAt 5 cfg5.N = Cert.Gcn.last (V c main_v69) (col (V c main_v14)) (V c main_arg12) (V c main_arg13) (V c main_arg14) :=
  (dat5 V c).arrAt_eq_of_cover 5 (Cert.Gcn.last (V c main_v69) (col (V c main_v14)) (V c main_arg12) (V c main_arg13) (V c main_arg14))
    (fun t _ => flushed5 V c t) covered5

end Cert.KernelIdeal.Val

end
-- ==== Proof.Stretch0.lean ====
/-
  The host operations between the kernel regions, as functions of the buffers they read.

  Before the first region the degrees are counted: one is added at the node of every edge end, the count is raised to at
  least one, and its reciprocal square root is the node's factor (`degFactor`, once with the edges' sources and once with
  their targets); the factors are stored as a column. Between two regions the features are aggregated over the edges: the row
  of every edge's source (a negative source wraps around by 50000) is gathered and added into the row of the edge's target
  (`aggK`). Neither function is opened here: the reference applies the same operations.
-/
import proofs.«131942_j13975823581721_1_alg».proof.Proof.Gen.KernelIdeal.Frame
import proofs.«131942_j13975823581721_1_alg».proof.Proof.Blocks
import Idealize.ShloMosaic.Lib.StableHlo.Run

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.StableHlo

/-- A node's degree factor: the reciprocal square root of the number of edge ends at the node, at least one. -/
def degFactor (ends : IVec S800000 32) : FVec Ideal S50000 .f32 :=
  Host.rsqrt (F := Ideal)
    (maximumf
      (Host.scatterAdd (F := Ideal) scatter_S50000_S800000x1_S800000_n_0_0_1
        (broadcastInDim S50000 ![] bcast_S_S50000 (constant S_ .f32 0x00000000#32))
        (broadcastInDim S800000x1 ![0] bcast_S800000_S800000x1_0 ends)
        (broadcastInDim S800000 ![] bcast_S_S800000 (constant S_ .f32 0x3F800000#32)))
      (broadcastInDim S50000 ![] bcast_S_S50000 (constant S_ .f32 0x3F800000#32)))

/-- The edge aggregation of node features: gather at the sources, add at the targets. -/
def aggK (src dst : IVec S800000 32) (h : FVec Ideal S50000x128 .f32) : FVec Ideal S50000x128 .f32 :=
  Host.scatterAdd (F := Ideal) scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable {α : Type}

/-- A vector of one number per node stored as a column: the column's entry r is the vector's entry r. -/
theorem colCast_apply (u : S50000.Idx → α) (r : Fin 50000) :
    shapeCast S50000x1 u shapeCasts_S50000_S50000x1 (ix2 r 0) = u (ix1 r) :=
  shapeCast_apply u _ (ix2 r 0) (ix1 r) (by
    rw [Shape.rowMajor_val_one, Shape.rowMajor_val_two]
    show r.val = r.val * 1 + 0
    omega)

theorem col_cast (u : S50000.Idx → EReal) : col (shapeCast S50000x1 u shapeCasts_S50000_S50000x1) = u := by
  funext i
  obtain ⟨r, rfl⟩ : ∃ r : Fin 50000, i = ix1 r := ⟨i 0, eq_ix1 i⟩
  exact colCast_apply u r

/-- After the first stretch the column of out-degree factors holds the sources' degree factors. -/
theorem outFactor_after0 (W : Valuation τ sig (Elt Ideal)) :
    col (StableHlo.after hostOps0 W (Proc.devRef .tc main_v10)) = degFactor (W (Proc.devRef .tc main_arg1)) := by
  have e : StableHlo.after hostOps0 W (Proc.devRef .tc main_v10)
      = shapeCast S50000x1 (degFactor (W (Proc.devRef .tc main_arg1))) shapeCasts_S50000_S50000x1 := by
    after_results
    rfl
  rw [e]
  exact col_cast _

/-- After the first stretch the column of in-degree factors holds the targets' degree factors. -/
theorem inFactor_after0 (W : Valuation τ sig (Elt Ideal)) :
    col (StableHlo.after hostOps0 W (Proc.devRef .tc main_v14)) = degFactor (W (Proc.devRef .tc main_arg2)) := by
  have e : StableHlo.after hostOps0 W (Proc.devRef .tc main_v14)
      = shapeCast S50000x1 (degFactor (W (Proc.devRef .tc main_arg2))) shapeCasts_S50000_S50000x1 := by
    after_results
    rfl
  rw [e]
  exact col_cast _

end Cert.KernelIdeal.Val

end
-- ==== Proof.Stretch1.lean ====
/-
  The host operations before kernel region 1: the aggregate the region reads is the edge aggregation of the previous
  region's output, with the edge lists as they stand in the buffers.
-/
import proofs.«131942_j13975823581721_1_alg».proof.Proof.Stretch0

noncomputable section

namespace Cert.KernelIdeal.Val

open Cert.KernelIdeal Cert.KernelIdeal.Gen Idealize.ShloMosaic Idealize.ShloMosaic.TcCoe Idealize.SL.Sem Idealize.ShloMosaic.StableHlo

set_option maxHeartbeats 4000000 in
theorem agg_after1 (W : Valuation τ sig (Elt Ideal)) :
    StableHlo.after hostOps1 W (Proc.devRef .tc main_v25)
      = aggK (W (Proc.devRef .tc main_arg1)) (W (Proc.devRef .tc main_arg2)) (W (Proc.devRef .tc main_v15)) := by
  after_results
  rfl

end Cert.KernelIdeal.Val

end
-- ==== Proof.Stretch2.lean ====
/-
  The host operations before kernel region 2: the aggregate the region reads is the edge aggregation of the previous
  region's output, with the edge lists as they stand in the buffers.
-/
import proofs.«131942_j13975823581721_1_alg».proof.Proof.Stretch0

noncomputable section

namespace Cert.KernelIdeal.Val

open Cert.KernelIdeal Cert.KernelIdeal.Gen Idealize.ShloMosaic Idealize.ShloMosaic.TcCoe Idealize.SL.Sem Idealize.ShloMosaic.StableHlo

set_option maxHeartbeats 4000000 in
theorem agg_after2 (W : Valuation τ sig (Elt Ideal)) :
    StableHlo.after hostOps2 W (Proc.devRef .tc main_v36)
      = aggK (W (Proc.devRef .tc main_arg1)) (W (Proc.devRef .tc main_arg2)) (W (Proc.devRef .tc main_v26)) := by
  after_results
  rfl

end Cert.KernelIdeal.Val

end
-- ==== Proof.Stretch3.lean ====
/-
  The host operations before kernel region 3: the aggregate the region reads is the edge aggregation of the previous
  region's output, with the edge lists as they stand in the buffers.
-/
import proofs.«131942_j13975823581721_1_alg».proof.Proof.Stretch0

noncomputable section

namespace Cert.KernelIdeal.Val

open Cert.KernelIdeal Cert.KernelIdeal.Gen Idealize.ShloMosaic Idealize.ShloMosaic.TcCoe Idealize.SL.Sem Idealize.ShloMosaic.StableHlo

set_option maxHeartbeats 4000000 in
theorem agg_after3 (W : Valuation τ sig (Elt Ideal)) :
    StableHlo.after hostOps3 W (Proc.devRef .tc main_v47)
      = aggK (W (Proc.devRef .tc main_arg1)) (W (Proc.devRef .tc main_arg2)) (W (Proc.devRef .tc main_v37)) := by
  after_results
  rfl

end Cert.KernelIdeal.Val

end
-- ==== Proof.Stretch4.lean ====
/-
  The host operations before kernel region 4: the aggregate the region reads is the edge aggregation of the previous
  region's output, with the edge lists as they stand in the buffers.
-/
import proofs.«131942_j13975823581721_1_alg».proof.Proof.Stretch0

noncomputable section

namespace Cert.KernelIdeal.Val

open Cert.KernelIdeal Cert.KernelIdeal.Gen Idealize.ShloMosaic Idealize.ShloMosaic.TcCoe Idealize.SL.Sem Idealize.ShloMosaic.StableHlo

set_option maxHeartbeats 4000000 in
theorem agg_after4 (W : Valuation τ sig (Elt Ideal)) :
    StableHlo.after hostOps4 W (Proc.devRef .tc main_v58)
      = aggK (W (Proc.devRef .tc main_arg1)) (W (Proc.devRef .tc main_arg2)) (W (Proc.devRef .tc main_v48)) := by
  after_results
  rfl

end Cert.KernelIdeal.Val

end
-- ==== Proof.Stretch5.lean ====
/-
  The host operations before kernel region 5: the aggregate the region reads is the edge aggregation of the previous
  region's output, with the edge lists as they stand in the buffers.
-/
import proofs.«131942_j13975823581721_1_alg».proof.Proof.Stretch0

noncomputable section

namespace Cert.KernelIdeal.Val

open Cert.KernelIdeal Cert.KernelIdeal.Gen Idealize.ShloMosaic Idealize.ShloMosaic.TcCoe Idealize.SL.Sem Idealize.ShloMosaic.StableHlo

set_option maxHeartbeats 4000000 in
theorem agg_after5 (W : Valuation τ sig (Elt Ideal)) :
    StableHlo.after hostOps5 W (Proc.devRef .tc main_v69)
      = aggK (W (Proc.devRef .tc main_arg1)) (W (Proc.devRef .tc main_arg2)) (W (Proc.devRef .tc main_v59)) := by
  after_results
  rfl

end Cert.KernelIdeal.Val

end
-- ==== Proof.Net.lean ====
/-
  The whole network as one function of its arguments: five layers, each the scaled projection of the previous layer's
  rectified aggregate, and the head. The edge aggregation `agg` and the two vectors of degree factors are parameters:
  both programs compute them with the same host operations, which this certificate never opens.
-/
import proofs.«131942_j13975823581721_1_alg».proof.Proof.Spec

noncomputable section

namespace Cert.Gcn

/-- The network's class scores: the first layer projects the input features; each later layer aggregates the previous
    layer's output over the edges, rectifies and projects; the head aggregates, rectifies and applies its matrix and bias. -/
def net (agg : (NodeFeat.Idx → EReal) → NodeFeat.Idx → EReal) (sOut sIn : Nodes.Idx → EReal)
    (x : NodeFeat.Idx → EReal)
    (w1 : Weight.Idx → EReal) (b1 : Feat.Idx → EReal) (w2 : Weight.Idx → EReal) (b2 : Feat.Idx → EReal)
    (w3 : Weight.Idx → EReal) (b3 : Feat.Idx → EReal) (w4 : Weight.Idx → EReal) (b4 : Feat.Idx → EReal)
    (w5 : Weight.Idx → EReal) (b5 : Feat.Idx → EReal) (wl : HeadW.Idx → EReal) (bl : Classes.Idx → EReal) : NodeCls.Idx → EReal :=
  last (agg (mid (agg (mid (agg (mid (agg (mid (agg (proj x w1 sOut)) sIn b1 w2 sOut)) sIn b2 w3 sOut)) sIn b3 w4 sOut)) sIn b4 w5 sOut)) sIn b5 wl bl

end Cert.Gcn

end
-- ==== Proof.Fold.lean ====
/-
  The idealized kernel's result as the network function of its arguments.

  Going through the chain of stretches and regions once: the first region leaves the scaled projection of the inputs; each
  stretch after a region leaves the edge aggregation of that region's output; each middle region leaves the middle layer's
  function of the aggregate it finds; the last region leaves the head's. The argument arrays and the two columns of degree
  factors are read at every boundary as they were first written.
-/
import proofs.«131942_j13975823581721_1_alg».proof.Proof.Walk
import proofs.«131942_j13975823581721_1_alg».proof.Proof.Region0
import proofs.«131942_j13975823581721_1_alg».proof.Proof.Region1
import proofs.«131942_j13975823581721_1_alg».proof.Proof.Region2
import proofs.«131942_j13975823581721_1_alg».proof.Proof.Region3
import proofs.«131942_j13975823581721_1_alg».proof.Proof.Region4
import proofs.«131942_j13975823581721_1_alg».proof.Proof.Region5
import proofs.«131942_j13975823581721_1_alg».proof.Proof.Stretch1
import proofs.«131942_j13975823581721_1_alg».proof.Proof.Stretch2
import proofs.«131942_j13975823581721_1_alg».proof.Proof.Stretch3
import proofs.«131942_j13975823581721_1_alg».proof.Proof.Stretch4
import proofs.«131942_j13975823581721_1_alg».proof.Proof.Stretch5
import proofs.«131942_j13975823581721_1_alg».proof.Proof.Net

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The out-degree factors, as every region finds them. -/
theorem outFactor1 (c : Dev nD) : col (W1 m ρ c (Proc.devRef .tc main_v10)) = degFactor (m ((c : Thread nD τ).loc main_arg1)) := outFactor_after0 (W0 m ρ c)
/-- The in-degree factors, as every region finds them. -/
theorem inFactor1 (c : Dev nD) : col (W1 m ρ c (Proc.devRef .tc main_v14)) = degFactor (m ((c : Thread nD τ).loc main_arg2)) := inFactor_after0 (W0 m ρ c)

/-- Layer 1's output in terms of the launch memory. -/
def kfeat0 (c : Dev nD) : S50000x128.Idx → EReal :=
  Cert.Gcn.proj (m ((c : Thread nD τ).loc main_arg0)) (m ((c : Thread nD τ).loc main_arg3)) (degFactor (m ((c : Thread nD τ).loc main_arg1)))

/-- Layer 2's output in terms of the launch memory. -/
def kfeat1 (c : Dev nD) : S50000x128.Idx → EReal :=
  Cert.Gcn.mid (aggK (m ((c : Thread nD τ).loc main_arg1)) (m ((c : Thread nD τ).loc main_arg2)) (kfeat0 m c)) (degFactor (m ((c : Thread nD τ).loc main_arg2))) (m ((c : Thread nD τ).loc main_arg4)) (m ((c : Thread nD τ).loc main_arg5)) (degFactor (m ((c : Thread nD τ).loc main_arg1)))

/-- Layer 3's output in terms of the launch memory. -/
def kfeat2 (c : Dev nD) : S50000x128.Idx → EReal :=
  Cert.Gcn.mid (aggK (m ((c : Thread nD τ).loc main_arg1)) (m ((c : Thread nD τ).loc main_arg2)) (kfeat1 m c)) (degFactor (m ((c : Thread nD τ).loc main_arg2))) (m ((c : Thread nD τ).loc main_arg6)) (m ((c : Thread nD τ).loc main_arg7)) (degFactor (m ((c : Thread nD τ).loc main_arg1)))

/-- Layer 4's output in terms of the launch memory. -/
def kfeat3 (c : Dev nD) : S50000x128.Idx → EReal :=
  Cert.Gcn.mid (aggK (m ((c : Thread nD τ).loc main_arg1)) (m ((c : Thread nD τ).loc main_arg2)) (kfeat2 m c)) (degFactor (m ((c : Thread nD τ).loc main_arg2))) (m ((c : Thread nD τ).loc main_arg8)) (m ((c : Thread nD τ).loc main_arg9)) (degFactor (m ((c : Thread nD τ).loc main_arg1)))

/-- Layer 5's output in terms of the launch memory. -/
def kfeat4 (c : Dev nD) : S50000x128.Idx → EReal :=
  Cert.Gcn.mid (aggK (m ((c : Thread nD τ).loc main_arg1)) (m ((c : Thread nD τ).loc main_arg2)) (kfeat3 m c)) (degFactor (m ((c : Thread nD τ).loc main_arg2))) (m ((c : Thread nD τ).loc main_arg10)) (m ((c : Thread nD τ).loc main_arg11)) (degFactor (m ((c : Thread nD τ).loc main_arg1)))

theorem feat0_val (c : Dev nD) : (W2 m ρ c (Proc.devRef .tc main_v15)) = kfeat0 m c := by
  refine (W2_arr m ρ c 3).trans ((value0 (V1 m ρ) c).trans ?_)
  show Cert.Gcn.proj (W1 m ρ c (Proc.devRef .tc main_arg0)) (W1 m ρ c (Proc.devRef .tc main_arg3)) (col (W1 m ρ c (Proc.devRef .tc main_v10))) = _
  rw [at1_arg0 m ρ c, at1_arg3 m ρ c, outFactor1 m ρ c]
  rfl

theorem agg1_val (c : Dev nD) : (W3 m ρ c (Proc.devRef .tc main_v25)) = aggK (m ((c : Thread nD τ).loc main_arg1)) (m ((c : Thread nD τ).loc main_arg2)) (kfeat0 m c) := by
  refine (agg_after1 (W2 m ρ c)).trans ?_
  rw [at2_arg1 m ρ c, at2_arg2 m ρ c, feat0_val m ρ c]

theorem feat1_val (c : Dev nD) : (W4 m ρ c (Proc.devRef .tc main_v26)) = kfeat1 m c := by
  refine (W4_arr m ρ c 5).trans ((value1 (V3 m ρ) c).trans ?_)
  show Cert.Gcn.mid (W3 m ρ c (Proc.devRef .tc main_v25)) (col (W3 m ρ c (Proc.devRef .tc main_v14))) (W3 m ρ c (Proc.devRef .tc main_arg4)) (W3 m ρ c (Proc.devRef .tc main_arg5)) (col (W3 m ρ c (Proc.devRef .tc main_v10))) = _
  rw [agg1_val m ρ c, at3_v14 m ρ c, at3_v10 m ρ c, at3_arg4 m ρ c, at3_arg5 m ρ c, inFactor1 m ρ c, outFactor1 m ρ c]
  rfl

theorem agg2_val (c : Dev nD) : (W5 m ρ c (Proc.devRef .tc main_v36)) = aggK (m ((c : Thread nD τ).loc main_arg1)) (m ((c : Thread nD τ).loc main_arg2)) (kfeat1 m c) := by
  refine (agg_after2 (W4 m ρ c)).trans ?_
  rw [at4_arg1 m ρ c, at4_arg2 m ρ c, feat1_val m ρ c]

theorem feat2_val (c : Dev nD) : (W6 m ρ c (Proc.devRef .tc main_v37)) = kfeat2 m c := by
  refine (W6_arr m ρ c 5).trans ((value2 (V5 m ρ) c).trans ?_)
  show Cert.Gcn.mid (W5 m ρ c (Proc.devRef .tc main_v36)) (col (W5 m ρ c (Proc.devRef .tc main_v14))) (W5 m ρ c (Proc.devRef .tc main_arg6)) (W5 m ρ c (Proc.devRef .tc main_arg7)) (col (W5 m ρ c (Proc.devRef .tc main_v10))) = _
  rw [agg2_val m ρ c, at5_v14 m ρ c, at5_v10 m ρ c, at5_arg6 m ρ c, at5_arg7 m ρ c, inFactor1 m ρ c, outFactor1 m ρ c]
  rfl

theorem agg3_val (c : Dev nD) : (W7 m ρ c (Proc.devRef .tc main_v47)) = aggK (m ((c : Thread nD τ).loc main_arg1)) (m ((c : Thread nD τ).loc main_arg2)) (kfeat2 m c) := by
  refine (agg_after3 (W6 m ρ c)).trans ?_
  rw [at6_arg1 m ρ c, at6_arg2 m ρ c, feat2_val m ρ c]

theorem feat3_val (c : Dev nD) : (W8 m ρ c (Proc.devRef .tc main_v48)) = kfeat3 m c := by
  refine (W8_arr m ρ c 5).trans ((value3 (V7 m ρ) c).trans ?_)
  show Cert.Gcn.mid (W7 m ρ c (Proc.devRef .tc main_v47)) (col (W7 m ρ c (Proc.devRef .tc main_v14))) (W7 m ρ c (Proc.devRef .tc main_arg8)) (W7 m ρ c (Proc.devRef .tc main_arg9)) (col (W7 m ρ c (Proc.devRef .tc main_v10))) = _
  rw [agg3_val m ρ c, at7_v14 m ρ c, at7_v10 m ρ c, at7_arg8 m ρ c, at7_arg9 m ρ c, inFactor1 m ρ c, outFactor1 m ρ c]
  rfl

theorem agg4_val (c : Dev nD) : (W9 m ρ c (Proc.devRef .tc main_v58)) = aggK (m ((c : Thread nD τ).loc main_arg1)) (m ((c : Thread nD τ).loc main_arg2)) (kfeat3 m c) := by
  refine (agg_after4 (W8 m ρ c)).trans ?_
  rw [at8_arg1 m ρ c, at8_arg2 m ρ c, feat3_val m ρ c]

theorem feat4_val (c : Dev nD) : (W10 m ρ c (Proc.devRef .tc main_v59)) = kfeat4 m c := by
  refine (W10_arr m ρ c 5).trans ((value4 (V9 m ρ) c).trans ?_)
  show Cert.Gcn.mid (W9 m ρ c (Proc.devRef .tc main_v58)) (col (W9 m ρ c (Proc.devRef .tc main_v14))) (W9 m ρ c (Proc.devRef .tc main_arg10)) (W9 m ρ c (Proc.devRef .tc main_arg11)) (col (W9 m ρ c (Proc.devRef .tc main_v10))) = _
  rw [agg4_val m ρ c, at9_v14 m ρ c, at9_v10 m ρ c, at9_arg10 m ρ c, at9_arg11 m ρ c, inFactor1 m ρ c, outFactor1 m ρ c]
  rfl

theorem agg5_val (c : Dev nD) : (W11 m ρ c (Proc.devRef .tc main_v69)) = aggK (m ((c : Thread nD τ).loc main_arg1)) (m ((c : Thread nD τ).loc main_arg2)) (kfeat4 m c) := by
  refine (agg_after5 (W10 m ρ c)).trans ?_
  rw [at10_arg1 m ρ c, at10_arg2 m ρ c, feat4_val m ρ c]

/-- After the last region the result array holds the network function of the launch contents of the arguments, with the
    kernel program's own edge aggregation and degree factors. -/
theorem kernel_value (c : Dev nD) : (W12 m ρ c (Proc.devRef .tc main_v70))
    = Cert.Gcn.net (aggK (m ((c : Thread nD τ).loc main_arg1)) (m ((c : Thread nD τ).loc main_arg2))) (degFactor (m ((c : Thread nD τ).loc main_arg1))) (degFactor (m ((c : Thread nD τ).loc main_arg2)))
        (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W12_arr m ρ c 5).trans ((value5 (V11 m ρ) c).trans ?_)
  show Cert.Gcn.last (W11 m ρ c (Proc.devRef .tc main_v69)) (col (W11 m ρ c (Proc.devRef .tc main_v14))) (W11 m ρ c (Proc.devRef .tc main_arg12)) (W11 m ρ c (Proc.devRef .tc main_arg13)) (W11 m ρ c (Proc.devRef .tc main_arg14)) = _
  rw [agg5_val m ρ c, at11_v14 m ρ c, at11_arg12 m ρ c, at11_arg13 m ρ c, at11_arg14 m ρ c, inFactor1 m ρ c]
  rfl

end Cert.KernelIdeal.Val

end
-- ==== Proof.RStage.lean ====
/-
  The reference's host operations of one layer, as the layer functions of whole arrays.

  The reference multiplies all 50000 rows by a weight matrix in one matrix product, spreads a vector of one factor per
  node first into a column and then along the features, and a bias vector first into a row and then along the nodes. Read
  entry by entry these are the layer functions: the scaled projection, the rectified scaled aggregate plus bias, the head.
-/
import proofs.«131942_j13975823581721_1_alg».proof.Proof.Gen.ReferenceIdeal
import proofs.«131942_j13975823581721_1_alg».proof.Proof.Spec
import Idealize.ShloMosaic.Lib.ValueIdx
import Idealize.ShloMosaic.Lib.Pipeline.Value
import Idealize.ShloMosaic.PureOps.Ideal.Laws

noncomputable section

namespace Cert.ReferenceIdeal.RefVal

open Cert.ReferenceIdeal Cert.ReferenceIdeal.Gen Idealize.ShloMosaic Idealize.ShloMosaic.ValueIdx

theorem lhsW_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhsW_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhsW_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhsW_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's matrix product at row `p` and column `q`: the sum over the 128 shared features. -/
theorem dotW_apply (l : FVec Ideal S50000x128 .f32) (r : FVec Ideal S128x128 .f32) (p : Fin 50000) (q : Fin 128) :
    Host.dotGeneral (F := Ideal) dot_S50000x128_S128x128_S50000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

theorem lhsH_0 (i : S50000x4.Idx) (q : dot_S50000x128_S128x4_S50000x4_1_0_0_1_n_n.contr.Idx) : (dot_S50000x128_S128x4_S50000x4_1_0_0_1_n_n.lhsIdx i q 0).val = (i 0).val := by
  unfold DotDims.lhsIdx
  rw [dif_neg (show ¬(0 : Fin S50000x128.rank) ∈ dot_S50000x128_S128x4_S50000x4_1_0_0_1_n_n.lhsBatch by decide), dif_pos (show (0 : Fin S50000x128.rank) ∈ dot_S50000x128_S128x4_S50000x4_1_0_0_1_n_n.lhsNonContracting by decide)]
  rfl
theorem lhsH_1 (i : S50000x4.Idx) (q : dot_S50000x128_S128x4_S50000x4_1_0_0_1_n_n.contr.Idx) : (dot_S50000x128_S128x4_S50000x4_1_0_0_1_n_n.lhsIdx i q 1).val = (q ⟨0, by decide⟩).val :=
  dot_S50000x128_S128x4_S50000x4_1_0_0_1_n_n.lhsIdx_val_of_single rfl i q
theorem rhsH_0 (i : S50000x4.Idx) (q : dot_S50000x128_S128x4_S50000x4_1_0_0_1_n_n.contr.Idx) : (dot_S50000x128_S128x4_S50000x4_1_0_0_1_n_n.rhsIdx i q 0).val = (q ⟨0, by decide⟩).val :=
  dot_S50000x128_S128x4_S50000x4_1_0_0_1_n_n.rhsIdx_val_of_single rfl i q
theorem rhsH_1 (i : S50000x4.Idx) (q : dot_S50000x128_S128x4_S50000x4_1_0_0_1_n_n.contr.Idx) : (dot_S50000x128_S128x4_S50000x4_1_0_0_1_n_n.rhsIdx i q 1).val = (i 1).val := by
  unfold DotDims.rhsIdx
  rw [dif_neg (show ¬(1 : Fin S128x4.rank) ∈ dot_S50000x128_S128x4_S50000x4_1_0_0_1_n_n.rhsBatch by decide), dif_pos (show (1 : Fin S128x4.rank) ∈ dot_S50000x128_S128x4_S50000x4_1_0_0_1_n_n.rhsNonContracting by decide)]
  rfl

/-- The host's matrix product at row `p` and column `q`: the sum over the 128 shared features. -/
theorem dotH_apply (l : FVec Ideal S50000x128 .f32) (r : FVec Ideal S128x4 .f32) (p : Fin 50000) (q : Fin 4) :
    Host.dotGeneral (F := Ideal) dot_S50000x128_S128x4_S50000x4_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S50000x128_S128x4_S50000x4_1_0_0_1_n_n 128 rfl rfl).symm]
  refine Finset.sum_congr rfl fun k _ => ?_
  have hk := ValueIdx.contrEquiv1_symm_val dot_S50000x128_S128x4_S50000x4_1_0_0_1_n_n 128 rfl rfl k
  have el : dot_S50000x128_S128x4_S50000x4_1_0_0_1_n_n.lhsIdx (ix2 p q) ((ValueIdx.contrEquiv1 dot_S50000x128_S128x4_S50000x4_1_0_0_1_n_n 128 rfl rfl).symm k) = ix2 p k := funext fun a => Fin.ext (by
    match a with
    | ⟨0, _⟩ => exact lhsH_0 _ _
    | ⟨1, _⟩ => exact (lhsH_1 _ _).trans hk)
  have er : dot_S50000x128_S128x4_S50000x4_1_0_0_1_n_n.rhsIdx (ix2 p q) ((ValueIdx.contrEquiv1 dot_S50000x128_S128x4_S50000x4_1_0_0_1_n_n 128 rfl rfl).symm k) = ix2 k q := funext fun a => Fin.ext (by
    match a with
    | ⟨0, _⟩ => exact (rhsH_0 _ _).trans hk
    | ⟨1, _⟩ => exact rhsH_1 _ _)
  rw [el, er]

/-- One factor per node, spread into a column and then along the 128 features. -/
def nodeSpread (s : FVec Ideal S50000 .f32) : FVec Ideal S50000x128 .f32 :=
  broadcastInDim S50000x128 ![0, 1] bcast_S50000x1_S50000x128_0_1 (broadcastInDim S50000x1 ![0] bcast_S50000_S50000x1_0 s)

theorem nodeSpread_apply (s : FVec Ideal S50000 .f32) (p : Fin 50000) (q : Fin 128) : nodeSpread s (ix2 p q) = s (ix1 p) := by
  unfold nodeSpread
  refine (broadcastInDim_apply _ _ _ (ix2 p q) (ix2 p (0 : Fin 1)) (fun a => by
    match a with
    | ⟨0, _⟩ => rfl
    | ⟨1, _⟩ => rfl)).trans ?_
  exact broadcastInDim_apply _ _ s (ix2 p (0 : Fin 1)) (ix1 p) (fun a => by
    match a with
    | ⟨0, _⟩ => rfl)

/-- One bias per feature, spread into a row and then along the nodes. -/
def featSpread (b : FVec Ideal S128 .f32) : FVec Ideal S50000x128 .f32 :=
  broadcastInDim S50000x128 ![0, 1] bcast_S1x128_S50000x128_0_1 (broadcastInDim S1x128 ![1] bcast_S128_S1x128_1 b)

theorem featSpread_apply (b : FVec Ideal S128 .f32) (p : Fin 50000) (q : Fin 128) : featSpread b (ix2 p q) = b (ix1 q) := by
  unfold featSpread
  refine (broadcastInDim_apply _ _ _ (ix2 p q) (ix2 (0 : Fin 1) q) (fun a => by
    match a with
    | ⟨0, _⟩ => rfl
    | ⟨1, _⟩ => rfl)).trans ?_
  exact broadcastInDim_apply _ _ b (ix2 (0 : Fin 1) q) (ix1 q) (fun a => by
    match a with
    | ⟨0, _⟩ => rfl)

/-- One bias per class, spread into a row and then along the nodes. -/
def clsSpread (b : FVec Ideal S4 .f32) : FVec Ideal S50000x4 .f32 :=
  broadcastInDim S50000x4 ![0, 1] bcast_S1x4_S50000x4_0_1 (broadcastInDim S1x4 ![1] bcast_S4_S1x4_1 b)

theorem clsSpread_apply (b : FVec Ideal S4 .f32) (p : Fin 50000) (q : Fin 4) : clsSpread b (ix2 p q) = b (ix1 q) := by
  unfold clsSpread
  refine (broadcastInDim_apply _ _ _ (ix2 p q) (ix2 (0 : Fin 1) q) (fun a => by
    match a with
    | ⟨0, _⟩ => rfl
    | ⟨1, _⟩ => rfl)).trans ?_
  exact broadcastInDim_apply _ _ b (ix2 (0 : Fin 1) q) (ix1 q) (fun a => by
    match a with
    | ⟨0, _⟩ => rfl)

/-- A scalar constant spread over all entries. -/
def splat (w : BitVec 32) : FVec Ideal S50000x128 .f32 :=
  broadcastInDim S50000x128 ![] bcast_S_S50000x128 (constant (F := Ideal) S_ .f32 w)

theorem splat_apply (w : BitVec 32) (i : S50000x128.Idx) : splat w i = Ideal.ofBits .f32 w := by
  unfold splat
  exact broadcastInDim_apply _ _ _ i (fun a => a.elim0) (fun a => a.elim0)

/-- The reference's projection of a layer is the scaled projection. -/
theorem stageProj (h : FVec Ideal S50000x128 .f32) (w : FVec Ideal S128x128 .f32) (s : FVec Ideal S50000 .f32) :
    mulf (Host.dotGeneral (F := Ideal) dot_S50000x128_S128x128_S50000x128_1_0_0_1_n_n none h w) (nodeSpread s) = Cert.Gcn.proj h w s := by
  funext i
  obtain ⟨p, q, rfl⟩ : ∃ (p : Fin 50000) (q : Fin 128), i = ix2 p q := ⟨i 0, i 1, eq_ix2 i⟩
  show FloatOps.mulf (Host.dotGeneral (F := Ideal) dot_S50000x128_S128x128_S50000x128_1_0_0_1_n_n none h w (ix2 p q)) (nodeSpread s (ix2 p q)) = _
  rw [dotW_apply, nodeSpread_apply]
  rfl

/-- The scaled aggregate plus bias, before the rectifier. -/
def preActR (a : FVec Ideal S50000x128 .f32) (s : FVec Ideal S50000 .f32) (b : FVec Ideal S128 .f32) : FVec Ideal S50000x128 .f32 :=
  addf (mulf a (nodeSpread s)) (featSpread b)

theorem preActR_apply (a : FVec Ideal S50000x128 .f32) (s : FVec Ideal S50000 .f32) (b : FVec Ideal S128 .f32) (p : Fin 50000) (q : Fin 128) :
    preActR a s b (ix2 p q) = a (ix2 p q) * s (ix1 p) + b (ix1 q) := by
  show FloatOps.addf (FloatOps.mulf (a (ix2 p q)) (nodeSpread s (ix2 p q))) (featSpread b (ix2 p q)) = _
  rw [nodeSpread_apply, featSpread_apply]
  rfl

/-- The reference's rectified scaled aggregate is the activation. -/
theorem stageAct (a : FVec Ideal S50000x128 .f32) (s : FVec Ideal S50000 .f32) (b : FVec Ideal S128 .f32) :
    select (cmpf .oge (preActR a s b) (splat 0x00000000#32)) (preActR a s b) (mulf (splat 0x3C23D70A#32) (preActR a s b))
      = Cert.Gcn.act a s b := by
  funext i
  obtain ⟨p, q, rfl⟩ : ∃ (p : Fin 50000) (q : Fin 128), i = ix2 p q := ⟨i 0, i 1, eq_ix2 i⟩
  show Scalar.select (FloatOps.cmpf .oge (preActR a s b (ix2 p q)) (splat 0x00000000#32 (ix2 p q))) (preActR a s b (ix2 p q))
    (FloatOps.mulf (splat 0x3C23D70A#32 (ix2 p q)) (preActR a s b (ix2 p q))) = _
  rw [preActR_apply, splat_apply, splat_apply]
  rfl

/-- The reference's head is the head. -/
theorem stageHead (h : FVec Ideal S50000x128 .f32) (w : FVec Ideal S128x4 .f32) (b : FVec Ideal S4 .f32) :
    addf (Host.dotGeneral (F := Ideal) dot_S50000x128_S128x4_S50000x4_1_0_0_1_n_n none h w) (clsSpread b) = Cert.Gcn.head h w b := by
  funext i
  obtain ⟨p, q, rfl⟩ : ∃ (p : Fin 50000) (q : Fin 4), i = ix2 p q := ⟨i 0, i 1, eq_ix2 i⟩
  show FloatOps.addf (Host.dotGeneral (F := Ideal) dot_S50000x128_S128x4_S50000x4_1_0_0_1_n_n none h w (ix2 p q)) (clsSpread b (ix2 p q)) = _
  rw [dotH_apply, clsSpread_apply]
  rfl

/-- A node's degree factor, by the reference's operations. -/
def degR (ends : IVec S800000 32) : FVec Ideal S50000 .f32 :=
  Host.rsqrt (F := Ideal)
    (maximumf
      (Host.scatterAdd (F := Ideal) scatter_S50000_S800000x1_S800000_n_0_0_1
        (broadcastInDim S50000 ![] bcast_S_S50000 (constant S_ .f32 0x00000000#32))
        (broadcastInDim S800000x1 ![0] bcast_S800000_S800000x1_0 ends)
        (broadcastInDim S800000 ![] bcast_S_S800000 (constant S_ .f32 0x3F800000#32)))
      (broadcastInDim S50000 ![] bcast_S_S50000 (constant S_ .f32 0x3F800000#32)))

/-- The edge aggregation, by the reference's operations. -/
def aggR (src dst : IVec S800000 32) (h : FVec Ideal S50000x128 .f32) : FVec Ideal S50000x128 .f32 :=
  Host.scatterAdd (F := Ideal) scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

end Cert.ReferenceIdeal.RefVal

end
-- ==== Proof.RLayers.lean ====
/-
  The reference's result as the network function of its arguments.

  Its operations, read one after the other: the degree factors; the first layer's scaled projection; then four times the
  edge aggregation of the previous layer, the rectified scaled aggregate plus bias, and the scaled projection; at last the
  aggregation, the rectified scaled aggregate and the head. Each step is an instance of one of the three layer functions.
-/
import proofs.«131942_j13975823581721_1_alg».proof.Proof.RefRead
import proofs.«131942_j13975823581721_1_alg».proof.Proof.RStage
import proofs.«131942_j13975823581721_1_alg».proof.Proof.Net

noncomputable section

namespace Cert.ReferenceIdeal.RefVal

open Cert.ReferenceIdeal Cert.ReferenceIdeal.Gen Cert.ReferenceIdeal.ReadP Idealize.ShloMosaic

variable (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x4, .f32⟩ : BufTy).Contents (Elt Ideal)) (x14 : (⟨S4, .f32⟩ : BufTy).Contents (Elt Ideal))

theorem feat0_eq : val_main_v16 (F := Ideal) x0 x1 x3 = Cert.Gcn.proj x0 x3 (degR x1) :=
  stageProj x0 x3 (degR x1)

theorem agg1_eq : val_main_v26 (F := Ideal) x0 x1 x2 x3 = aggR x1 x2 (val_main_v16 (F := Ideal) x0 x1 x3) := rfl
theorem act1_eq : val_main_v37 (F := Ideal) x0 x1 x2 x3 x4 = Cert.Gcn.act (val_main_v26 (F := Ideal) x0 x1 x2 x3) (degR x2) x4 :=
  stageAct (val_main_v26 (F := Ideal) x0 x1 x2 x3) (degR x2) x4
theorem feat1_eq : val_main_v41 (F := Ideal) x0 x1 x2 x3 x4 x5 = Cert.Gcn.proj (val_main_v37 (F := Ideal) x0 x1 x2 x3 x4) x5 (degR x1) :=
  stageProj (val_main_v37 (F := Ideal) x0 x1 x2 x3 x4) x5 (degR x1)

theorem agg2_eq : val_main_v51 (F := Ideal) x0 x1 x2 x3 x4 x5 = aggR x1 x2 (val_main_v41 (F := Ideal) x0 x1 x2 x3 x4 x5) := rfl
theorem act2_eq : val_main_v62 (F := Ideal) x0 x1 x2 x3 x4 x5 x6 = Cert.Gcn.act (val_main_v51 (F := Ideal) x0 x1 x2 x3 x4 x5) (degR x2) x6 :=
  stageAct (val_main_v51 (F := Ideal) x0 x1 x2 x3 x4 x5) (degR x2) x6
theorem feat2_eq : val_main_v66 (F := Ideal) x0 x1 x2 x3 x4 x5 x6 x7 = Cert.Gcn.proj (val_main_v62 (F := Ideal) x0 x1 x2 x3 x4 x5 x6) x7 (degR x1) :=
  stageProj (val_main_v62 (F := Ideal) x0 x1 x2 x3 x4 x5 x6) x7 (degR x1)

theorem agg3_eq : val_main_v76 (F := Ideal) x0 x1 x2 x3 x4 x5 x6 x7 = aggR x1 x2 (val_main_v66 (F := Ideal) x0 x1 x2 x3 x4 x5 x6 x7) := rfl
theorem act3_eq : val_main_v87 (F := Ideal) x0 x1 x2 x3 x4 x5 x6 x7 x8 = Cert.Gcn.act (val_main_v76 (F := Ideal) x0 x1 x2 x3 x4 x5 x6 x7) (degR x2) x8 :=
  stageAct (val_main_v76 (F := Ideal) x0 x1 x2 x3 x4 x5 x6 x7) (degR x2) x8
theorem feat3_eq : val_main_v91 (F := Ideal) x0 x1 x2 x3 x4 x5 x6 x7 x8 x9 = Cert.Gcn.proj (val_main_v87 (F := Ideal) x0 x1 x2 x3 x4 x5 x6 x7 x8) x9 (degR x1) :=
  stageProj (val_main_v87 (F := Ideal) x0 x1 x2 x3 x4 x5 x6 x7 x8) x9 (degR x1)

theorem agg4_eq : val_main_v101 (F := Ideal) x0 x1 x2 x3 x4 x5 x6 x7 x8 x9 = aggR x1 x2 (val_main_v91 (F := Ideal) x0 x1 x2 x3 x4 x5 x6 x7 x8 x9) := rfl
theorem act4_eq : val_main_v112 (F := Ideal) x0 x1 x2 x3 x4 x5 x6 x7 x8 x9 x10 = Cert.Gcn.act (val_main_v101 (F := Ideal) x0 x1 x2 x3 x4 x5 x6 x7 x8 x9) (degR x2) x10 :=
  stageAct (val_main_v101 (F := Ideal) x0 x1 x2 x3 x4 x5 x6 x7 x8 x9) (degR x2) x10
theorem feat4_eq : val_main_v116 (F := Ideal) x0 x1 x2 x3 x4 x5 x6 x7 x8 x9 x10 x11 = Cert.Gcn.proj (val_main_v112 (F := Ideal) x0 x1 x2 x3 x4 x5 x6 x7 x8 x9 x10) x11 (degR x1) :=
  stageProj (val_main_v112 (F := Ideal) x0 x1 x2 x3 x4 x5 x6 x7 x8 x9 x10) x11 (degR x1)

theorem agg5_eq : val_main_v126 (F := Ideal) x0 x1 x2 x3 x4 x5 x6 x7 x8 x9 x10 x11 = aggR x1 x2 (val_main_v116 (F := Ideal) x0 x1 x2 x3 x4 x5 x6 x7 x8 x9 x10 x11) := rfl
theorem act5_eq : val_main_v137 (F := Ideal) x0 x1 x2 x3 x4 x5 x6 x7 x8 x9 x10 x11 x12 = Cert.Gcn.act (val_main_v126 (F := Ideal) x0 x1 x2 x3 x4 x5 x6 x7 x8 x9 x10 x11) (degR x2) x12 :=
  stageAct (val_main_v126 (F := Ideal) x0 x1 x2 x3 x4 x5 x6 x7 x8 x9 x10 x11) (degR x2) x12
theorem out_eq : val_main_v141 (F := Ideal) x0 x1 x2 x3 x4 x5 x6 x7 x8 x9 x10 x11 x12 x13 x14 = Cert.Gcn.head (val_main_v137 (F := Ideal) x0 x1 x2 x3 x4 x5 x6 x7 x8 x9 x10 x11 x12) x13 x14 :=
  stageHead (val_main_v137 (F := Ideal) x0 x1 x2 x3 x4 x5 x6 x7 x8 x9 x10 x11 x12) x13 x14

/-- The reference's result is the network function, with the reference's own edge aggregation and degree factors. -/
theorem ref_value : val_main_v141 (F := Ideal) x0 x1 x2 x3 x4 x5 x6 x7 x8 x9 x10 x11 x12 x13 x14
    = Cert.Gcn.net (aggR x1 x2) (degR x1) (degR x2) x0 x3 x4 x5 x6 x7 x8 x9 x10 x11 x12 x13 x14 := by
  rw [out_eq, act5_eq, agg5_eq, feat4_eq, act4_eq, agg4_eq, feat3_eq, act3_eq, agg3_eq, feat2_eq, act2_eq, agg2_eq,
    feat1_eq, act1_eq, agg1_eq, feat0_eq]
  rfl

end Cert.ReferenceIdeal.RefVal

end
-- ==== Proof.lean ====
/-
  The certificate of the graph convolution network kernel against its reference: five GraphConv layers with a leaky
  rectifier and a linear head, on 50000 nodes with 128 features and 800000 edges.

  Both programs count the degrees, turn them into the factors 1/sqrt(max(degree, 1)), and aggregate features over the edges
  with the same host operations (a scatter-add of ones; a gather at the edges' sources and a scatter-add at their targets).
  They differ in how the dense part of a layer is computed: the reference multiplies all rows by the weight matrix at once
  and spreads the degree factors and the biases by broadcasts; the kernel works on ten blocks of 5000 rows, each block's
  product taken after a rounding to bf16 that is the identity over the extended reals, and fuses the scaling by the in-degree
  factor, the bias, the rectifier, the next projection and the scaling by the out-degree factor into one pass. Entry by entry
  both are the same sums, products and comparisons, in the same order, so no algebraic law is needed and the precondition
  (finite inputs) is never opened: the two results are one function of the arguments (`Cert.Gcn.net`).

  The three frames are the generated frame of the kernel at both instances and the reference's generated run with its
  result dropped; the idealization rewrote nothing, so `preserves` is trivial; `algebraic` posts both runs at the
  network function of the arguments.
-/
import proofs.«131942_j13975823581721_1_alg».proof.Defs
import proofs.«131942_j13975823581721_1_alg».proof.Proof.Gen.Kernel
import proofs.«131942_j13975823581721_1_alg».proof.Proof.Gen.Kernel.Skeleton
import proofs.«131942_j13975823581721_1_alg».proof.Proof.Gen.Kernel.Launch
import proofs.«131942_j13975823581721_1_alg».proof.Proof.Gen.Kernel.Points
import proofs.«131942_j13975823581721_1_alg».proof.Proof.Gen.Kernel.Frame
import proofs.«131942_j13975823581721_1_alg».proof.Proof.Gen.KernelIdeal
import proofs.«131942_j13975823581721_1_alg».proof.Proof.Gen.KernelIdeal.Skeleton
import proofs.«131942_j13975823581721_1_alg».proof.Proof.Gen.KernelIdeal.Launch
import proofs.«131942_j13975823581721_1_alg».proof.Proof.Gen.KernelIdeal.Points
import proofs.«131942_j13975823581721_1_alg».proof.Proof.Gen.KernelIdeal.Frame
import proofs.«131942_j13975823581721_1_alg».proof.Proof.Gen.ReferenceIdeal
import proofs.«131942_j13975823581721_1_alg».proof.Proof.Gen.Pre_finite_inputs
import proofs.«131942_j13975823581721_1_alg».proof.Proof.KRun
import proofs.«131942_j13975823581721_1_alg».proof.Proof.Fold
import proofs.«131942_j13975823581721_1_alg».proof.Proof.RLayers
import Idealize.ShloMosaic.Adequacy
import Idealize.ShloMosaic.Init

noncomputable section

namespace Cert.Proof

open Idealize.ShloMosaic Idealize.ShloMosaic.TcCoe Idealize.SL.Sem

/-- Both programs aggregate over the edges by the same operations. -/
theorem agg_same (src dst : IVec Cert.KernelIdeal.S800000 32) (h : FVec Ideal Cert.KernelIdeal.S50000x128 .f32) :
    Cert.ReferenceIdeal.RefVal.aggR src dst h = Cert.KernelIdeal.Val.aggK src dst h := rfl

/-- Both programs compute the degree factors by the same operations. -/
theorem deg_same (ends : IVec Cert.KernelIdeal.S800000 32) :
    Cert.ReferenceIdeal.RefVal.degR ends = Cert.KernelIdeal.Val.degFactor ends := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization of the kernel rewrote no operation. -/
theorem preserves : Cert.preserves_Kernel_KernelIdeal := trivial

/-- Run from memories that agree on the arguments, both programs end with the network function of the arguments. -/
theorem algebraic : Cert.algebraic_KernelIdeal_ReferenceIdeal := by
  intro m ρ m' ρ' _ hagree
  refine ⟨fun c => Cert.Gcn.net (Cert.KernelIdeal.Val.aggK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.KernelIdeal.Val.degFactor (m ((c.tc : Thread Cert.KernelIdeal.nD Cert.KernelIdeal.τ).loc Cert.KernelIdeal.main_arg1))) (Cert.KernelIdeal.Val.degFactor (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Val.kernel_value m ρ c), (h c).2⟩)
      (Cert.KernelIdeal.Val.run_value m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12, e13, e14⟩ := hagree c
    rw [Cert.ReferenceIdeal.ReadP.val_main_v141_eq, Cert.ReferenceIdeal.RefVal.ref_value,
      e0, e1, e2, e3, e4, e5, e6, e7, e8, e9, e10, e11, e12, e13, e14]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
